-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x3584 : Shape := ⟨3, ![4, 2048, 3584]⟩
abbrev S14336x3584 : Shape := ⟨2, ![14336, 3584]⟩
abbrev S14336x28 : Shape := ⟨2, ![14336, 28]⟩
abbrev S3584x14336 : Shape := ⟨2, ![3584, 14336]⟩
abbrev S3584x112 : Shape := ⟨2, ![3584, 112]⟩
abbrev S_ : Shape := ⟨0, ![]⟩

class Facts : Prop where
  bcast_S_S4x2048x3584 : S_.BroadcastsInDim S4x2048x3584 (![] : Fin 0 → Fin S4x2048x3584.rank)
  reducesTo_S4x2048x3584_S_d0_1_2 : S4x2048x3584.ReducesTo [0, 1, 2] S_
  h_S_ : 0 < S_.numel
  bcast_S_S14336x28 : S_.BroadcastsInDim S14336x28 (![] : Fin 0 → Fin S14336x28.rank)
  reducesTo_S14336x28_S_d0_1 : S14336x28.ReducesTo [0, 1] S_
  bcast_S_S3584x112 : S_.BroadcastsInDim S3584x112 (![] : Fin 0 → Fin S3584x112.rank)
  reducesTo_S3584x112_S_d0_1 : S3584x112.ReducesTo [0, 1] S_

variable [Facts]

def fn_part1 {F : FTy → Type} [FloatOps F] (main_v13 : IVec S_ 1) (main_v16 : IVec S3584x112 1) : IVec S_ 1 :=
  let main_c_5 : IVec S_ 1 := constantI S_ 1 1#1
  let main_v17 : IVec S_ 1 := (fun x v => Host.reduce IntOp.andi x v reducesTo_S3584x112_S_d0_1 h_S_) main_v16 main_c_5
  let main_v18 : IVec S_ 1 := andi main_v13 main_v17
  main_v18

def fn {F : FTy → Type} [FloatOps F] (main_arg0 : FVec F S4x2048x3584 .f32) (main_arg1 : IVec S14336x3584 32) (main_arg2 : FVec F S14336x28 .f32) (main_arg3 : IVec S14336x3584 32) (main_arg4 : FVec F S14336x28 .f32) (main_arg5 : IVec S3584x14336 32) (main_arg6 : FVec F S3584x112 .f32) : IVec S_ 1 :=
  let main_v0 : FVec F S4x2048x3584 .f32 := Host.absf main_arg0
  let main_cst : FVec F S_ .f32 := constant S_ .f32 0x7F800000#32
  let main_v1 : FVec F S4x2048x3584 .f32 := broadcastInDim S4x2048x3584 ![] bcast_S_S4x2048x3584 main_cst
  let main_v2 : IVec S4x2048x3584 1 := cmpf .olt main_v0 main_v1
  let main_c : IVec S_ 1 := constantI S_ 1 1#1
  let main_v3 : IVec S_ 1 := (fun x v => Host.reduce IntOp.andi x v reducesTo_S4x2048x3584_S_d0_1_2 h_S_) main_v2 main_c
  let main_v4 : FVec F S14336x28 .f32 := Host.absf main_arg2
  let main_cst_0 : FVec F S_ .f32 := constant S_ .f32 0x7F800000#32
  let main_v5 : FVec F S14336x28 .f32 := broadcastInDim S14336x28 ![] bcast_S_S14336x28 main_cst_0
  let main_v6 : IVec S14336x28 1 := cmpf .olt main_v4 main_v5
  let main_c_1 : IVec S_ 1 := constantI S_ 1 1#1
  let main_v7 : IVec S_ 1 := (fun x v => Host.reduce IntOp.andi x v reducesTo_S14336x28_S_d0_1 h_S_) main_v6 main_c_1
  let main_v8 : IVec S_ 1 := andi main_v3 main_v7
  let main_v9 : FVec F S14336x28 .f32 := Host.absf main_arg4
  let main_cst_2 : FVec F S_ .f32 := constant S_ .f32 0x7F800000#32
  let main_v10 : FVec F S14336x28 .f32 := broadcastInDim S14336x28 ![] bcast_S_S14336x28 main_cst_2
  let main_v11 : IVec S14336x28 1 := cmpf .olt main_v9 main_v10
  let main_c_3 : IVec S_ 1 := constantI S_ 1 1#1
  let main_v12 : IVec S_ 1 := (fun x v => Host.reduce IntOp.andi x v reducesTo_S14336x28_S_d0_1 h_S_) main_v11 main_c_3
  let main_v13 : IVec S_ 1 := andi main_v8 main_v12
  let main_v14 : FVec F S3584x112 .f32 := Host.absf main_arg6
  let main_cst_4 : FVec F S_ .f32 := constant S_ .f32 0x7F800000#32
  let main_v15 : FVec F S3584x112 .f32 := broadcastInDim S3584x112 ![] bcast_S_S3584x112 main_cst_4
  let main_v16 : IVec S3584x112 1 := cmpf .olt main_v14 main_v15
  fn_part1 (F := F) main_v13 main_v16
-- ==== Kernel.lean ====
abbrev S4x2048x3584 : Shape := ⟨3, ![4, 2048, 3584]⟩
abbrev S14336x3584 : Shape := ⟨2, ![14336, 3584]⟩
abbrev S14336x28 : Shape := ⟨2, ![14336, 28]⟩
abbrev S3584x14336 : Shape := ⟨2, ![3584, 14336]⟩
abbrev S3584x112 : Shape := ⟨2, ![3584, 112]⟩
abbrev S8192x3584 : Shape := ⟨2, ![8192, 3584]⟩
abbrev S112x3584 : Shape := ⟨2, ![112, 3584]⟩
abbrev S8192x14336 : Shape := ⟨2, ![8192, 14336]⟩
abbrev S1024x3584 : Shape := ⟨2, ![1024, 3584]⟩
abbrev S128x3584 : Shape := ⟨2, ![128, 3584]⟩
abbrev S128x28 : Shape := ⟨2, ![128, 28]⟩
abbrev S1024x128 : Shape := ⟨2, ![1024, 128]⟩
abbrev S128x28x128 : Shape := ⟨3, ![128, 28, 128]⟩
abbrev S128x28x1 : Shape := ⟨3, ![128, 28, 1]⟩
abbrev S2048x1024 : Shape := ⟨2, ![2048, 1024]⟩
abbrev S512x1024 : Shape := ⟨2, ![512, 1024]⟩
abbrev S8x512 : Shape := ⟨2, ![8, 512]⟩
abbrev S2048x512 : Shape := ⟨2, ![2048, 512]⟩
abbrev S512x8 : Shape := ⟨2, ![512, 8]⟩
abbrev S512x8x128 : Shape := ⟨3, ![512, 8, 128]⟩
abbrev S512x8x1 : Shape := ⟨3, ![512, 8, 1]⟩

abbrev nBuf : Space → Nat
  | .hbm => 13
  | .vmem => 20
  | .smem => 0
  | _ => 0

abbrev bufTy : (tb : Table) → Fin (tcTables nBuf tb) → BufTy
  | .hbm, ⟨0, _⟩ => ⟨S4x2048x3584, .f32⟩
  | .hbm, ⟨1, _⟩ => ⟨S14336x3584, .i32⟩
  | .hbm, ⟨2, _⟩ => ⟨S14336x28, .f32⟩
  | .hbm, ⟨3, _⟩ => ⟨S14336x3584, .i32⟩
  | .hbm, ⟨4, _⟩ => ⟨S14336x28, .f32⟩
  | .hbm, ⟨5, _⟩ => ⟨S3584x14336, .i32⟩
  | .hbm, ⟨6, _⟩ => ⟨S3584x112, .f32⟩
  | .hbm, ⟨7, _⟩ => ⟨S8192x3584, .f32⟩
  | .hbm, ⟨8, _⟩ => ⟨S8192x3584, .bf16⟩
  | .hbm, ⟨9, _⟩ => ⟨S112x3584, .f32⟩
  | .hbm, ⟨10, _⟩ => ⟨S8192x14336, .bf16⟩
  | .hbm, ⟨11, _⟩ => ⟨S8192x3584, .f32⟩
  | .hbm, ⟨12, _⟩ => ⟨S4x2048x3584, .f32⟩
  | .local _ .vmem, ⟨0, _⟩ => ⟨S1024x3584, .bf16⟩
  | .local _ .vmem, ⟨1, _⟩ => ⟨S1024x3584, .bf16⟩
  | .local _ .vmem, ⟨2, _⟩ => ⟨S128x3584, .i32⟩
  | .local _ .vmem, ⟨3, _⟩ => ⟨S128x3584, .i32⟩
  | .local _ .vmem, ⟨4, _⟩ => ⟨S128x28, .f32⟩
  | .local _ .vmem, ⟨5, _⟩ => ⟨S128x28, .f32⟩
  | .local _ .vmem, ⟨6, _⟩ => ⟨S128x3584, .i32⟩
  | .local _ .vmem, ⟨7, _⟩ => ⟨S128x3584, .i32⟩
  | .local _ .vmem, ⟨8, _⟩ => ⟨S128x28, .f32⟩
  | .local _ .vmem, ⟨9, _⟩ => ⟨S128x28, .f32⟩
  | .local _ .vmem, ⟨10, _⟩ => ⟨S1024x128, .bf16⟩
  | .local _ .vmem, ⟨11, _⟩ => ⟨S1024x128, .bf16⟩
  | .local _ .vmem, ⟨12, _⟩ => ⟨S2048x1024, .bf16⟩
  | .local _ .vmem, ⟨13, _⟩ => ⟨S2048x1024, .bf16⟩
  | .local _ .vmem, ⟨14, _⟩ => ⟨S512x1024, .i32⟩
  | .local _ .vmem, ⟨15, _⟩ => ⟨S512x1024, .i32⟩
  | .local _ .vmem, ⟨16, _⟩ => ⟨S8x512, .f32⟩
  | .local _ .vmem, ⟨17, _⟩ => ⟨S8x512, .f32⟩
  | .local _ .vmem, ⟨18, _⟩ => ⟨S2048x512, .f32⟩
  | .local _ .vmem, ⟨19, _⟩ => ⟨S2048x512, .f32⟩
  | _, _ => ⟨S4x2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![8, 112], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x3584 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x3584 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x28 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 7, 14], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x3584_S8192x3584 : S4x2048x3584.ShapeCasts S8192x3584
  bitsLt_bf16_f32 : FTy.bits .bf16 < FTy.bits .f32
  transposes_S3584x112_S112x3584_1_0 : S3584x112.Transposes [1, 0] S112x3584
  inb_S1024x3584_S1024x3584_0_0 : ∀ a, (![0, 0] : Fin 2 → Nat) a + S1024x3584.size a ≤ S1024x3584.size a
  h_S1024x3584 : 0 < S1024x3584.numel
  shapeCasts_S1024x3584_S1024x3584 : S1024x3584.ShapeCasts S1024x3584
  inb_S128x3584_S128x3584_0_0 : ∀ a, (![0, 0] : Fin 2 → Nat) a + S128x3584.size a ≤ S128x3584.size a
  h_S128x3584 : 0 < S128x3584.numel
  shapeCasts_S128x3584_S128x28x128 : S128x3584.ShapeCasts S128x28x128
  inb_S128x28_S128x28_0_0 : ∀ a, (![0, 0] : Fin 2 → Nat) a + S128x28.size a ≤ S128x28.size a
  h_S128x28 : 0 < S128x28.numel
  shapeCasts_S128x28_S128x28x1 : S128x28.ShapeCasts S128x28x1
  broadcasts_S128x28x1_S128x28x128 : S128x28x1.Broadcasts S128x28x128
  shapeCasts_S128x28x128_S128x3584 : S128x28x128.ShapeCasts S128x3584
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  inb_S2048x512_S2048x512_0_0 : ∀ a, (![0, 0] : Fin 2 → Nat) a + S2048x512.size a ≤ S2048x512.size a
  h_S2048x512 : 0 < S2048x512.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S8x512_S8x512_0_0 : ∀ a, (![0, 0] : Fin 2 → Nat) a + S8x512.size a ≤ S8x512.size a
  h_S8x512 : 0 < S8x512.numel
  shapeCasts_S8x512_S8x512 : S8x512.ShapeCasts S8x512
  transposes_S8x512_p1_0_S512x8 : S8x512.Transposes [1, 0] S512x8
  inb_S512x1024_S512x1024_0_0 : ∀ a, (![0, 0] : Fin 2 → Nat) a + S512x1024.size a ≤ S512x1024.size a
  h_S512x1024 : 0 < S512x1024.numel
  shapeCasts_S512x1024_S512x8x128 : S512x1024.ShapeCasts S512x8x128
  shapeCasts_S512x8_S512x8x1 : S512x8.ShapeCasts S512x8x1
  broadcasts_S512x8x1_S512x8x128 : S512x8x1.Broadcasts S512x8x128
  shapeCasts_S512x8x128_S512x1024 : S512x8x128.ShapeCasts S512x1024
  shapeCasts_S2048x512_S2048x512 : S2048x512.ShapeCasts S2048x512
  shapeCasts_S8192x3584_S4x2048x3584 : S8192x3584.ShapeCasts S4x2048x3584
  dot_S1024x3584_S128x3584_S1024x128_1_1_0_0_n_n_wf : DotDims.WF S1024x3584 S128x3584 S1024x128 [1] [1] [0] [0] [] []
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3584.size a ≤ S8192x3584.size a
  hwx0_0 : ∀ i : grid0.Coords, EltTy.bits .bf16 = 32 ∨ (Rect.block (s := S8192x3584) S1024x3584.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3584.size a ≤ S14336x3584.size a
  hwx0_1 : ∀ i : grid0.Coords, EltTy.bits .i32 = 32 ∨ (Rect.block (s := S14336x3584) S128x3584.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x28.size a ≤ S14336x28.size a
  hwx0_2 : ∀ i : grid0.Coords, EltTy.bits .f32 = 32 ∨ (Rect.block (s := S14336x28) S128x28.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x3584.size a ≤ S14336x3584.size a
  hwx0_3 : ∀ i : grid0.Coords, EltTy.bits .i32 = 32 ∨ (Rect.block (s := S14336x3584) S128x3584.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x28.size a ≤ S14336x28.size a
  hwx0_4 : ∀ i : grid0.Coords, EltTy.bits .f32 = 32 ∨ (Rect.block (s := S14336x28) S128x28.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S8192x14336.size a
  hwx0_5 : ∀ i : grid0.Coords, EltTy.bits .bf16 = 32 ∨ (Rect.block (s := S8192x14336) S1024x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x14336.size a
  hwx1_0 : ∀ i : grid1.Coords, EltTy.bits .bf16 = 32 ∨ (Rect.block (s := S8192x14336) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S3584x14336.size a
  hwx1_1 : ∀ i : grid1.Coords, EltTy.bits .i32 = 32 ∨ (Rect.block (s := S3584x14336) S512x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S112x3584.size a
  hwx1_2 : ∀ i : grid1.Coords, EltTy.bits .f32 = 32 ∨ (Rect.block (s := S112x3584) S8x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S8192x3584.size a
  hwx1_3 : ∀ i : grid1.Coords, EltTy.bits .f32 = 32 ∨ (Rect.block (s := S8192x3584) S2048x512.size (cc1_transform_3 i) (hinb1_3 i)).WholeWords (EltTy.packing .f32)

variable [Facts₀]

def dot_S1024x3584_S128x3584_S1024x128_1_1_0_0_n_n : DotDims S1024x3584 S128x3584 S1024x128 where
  lhsContracting := [1]
  rhsContracting := [1]
  lhsNonContracting := [0]
  rhsNonContracting := [0]
  lhsBatch := []
  rhsBatch := []
  wf := dot_S1024x3584_S128x3584_S1024x128_1_1_0_0_n_n_wf
def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_v1) S1024x3584.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3584.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x28.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x3584.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x28.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x3584 : Shape := ⟨3, ![4, 2048, 3584]⟩
abbrev S14336x3584 : Shape := ⟨2, ![14336, 3584]⟩
abbrev S14336x28 : Shape := ⟨2, ![14336, 28]⟩
abbrev S3584x14336 : Shape := ⟨2, ![3584, 14336]⟩
abbrev S3584x112 : Shape := ⟨2, ![3584, 112]⟩
abbrev S14336x28x128 : Shape := ⟨3, ![14336, 28, 128]⟩
abbrev S14336x28x1 : Shape := ⟨3, ![14336, 28, 1]⟩
abbrev S3584x112x128 : Shape := ⟨3, ![3584, 112, 128]⟩
abbrev S3584x112x1 : Shape := ⟨3, ![3584, 112, 1]⟩
abbrev S4x2048x14336 : Shape := ⟨3, ![4, 2048, 14336]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x3584, .f32⟩
  | .hbm, ⟨1, _⟩ => ⟨S14336x3584, .i32⟩
  | .hbm, ⟨2, _⟩ => ⟨S14336x28, .f32⟩
  | .hbm, ⟨3, _⟩ => ⟨S14336x3584, .i32⟩
  | .hbm, ⟨4, _⟩ => ⟨S14336x28, .f32⟩
  | .hbm, ⟨5, _⟩ => ⟨S3584x14336, .i32⟩
  | .hbm, ⟨6, _⟩ => ⟨S3584x112, .f32⟩
  | .hbm, ⟨7, _⟩ => ⟨S14336x3584, .f32⟩
  | .hbm, ⟨8, _⟩ => ⟨S14336x28x128, .f32⟩
  | .hbm, ⟨9, _⟩ => ⟨S14336x28x1, .f32⟩
  | .hbm, ⟨10, _⟩ => ⟨S14336x28x128, .f32⟩
  | .hbm, ⟨11, _⟩ => ⟨S14336x28x128, .f32⟩
  | .hbm, ⟨12, _⟩ => ⟨S14336x3584, .f32⟩
  | .hbm, ⟨13, _⟩ => ⟨S14336x3584, .f32⟩
  | .hbm, ⟨14, _⟩ => ⟨S14336x28x128, .f32⟩
  | .hbm, ⟨15, _⟩ => ⟨S14336x28x1, .f32⟩
  | .hbm, ⟨16, _⟩ => ⟨S14336x28x128, .f32⟩
  | .hbm, ⟨17, _⟩ => ⟨S14336x28x128, .f32⟩
  | .hbm, ⟨18, _⟩ => ⟨S14336x3584, .f32⟩
  | .hbm, ⟨19, _⟩ => ⟨S3584x14336, .f32⟩
  | .hbm, ⟨20, _⟩ => ⟨S3584x112x128, .f32⟩
  | .hbm, ⟨21, _⟩ => ⟨S3584x112x1, .f32⟩
  | .hbm, ⟨22, _⟩ => ⟨S3584x112x128, .f32⟩
  | .hbm, ⟨23, _⟩ => ⟨S3584x112x128, .f32⟩
  | .hbm, ⟨24, _⟩ => ⟨S3584x14336, .f32⟩
  | .hbm, ⟨25, _⟩ => ⟨S4x2048x14336, .f32⟩
  | .hbm, ⟨26, _⟩ => ⟨S4x2048x14336, .f32⟩
  | .hbm, ⟨27, _⟩ => ⟨S4x2048x14336, .f32⟩
  | .hbm, ⟨28, _⟩ => ⟨S4x2048x14336, .f32⟩
  | .hbm, ⟨29, _⟩ => ⟨S_, .f32⟩
  | .hbm, ⟨30, _⟩ => ⟨S4x2048x14336, .f32⟩
  | .hbm, ⟨31, _⟩ => ⟨S4x2048x14336, .f32⟩
  | .hbm, ⟨32, _⟩ => ⟨S4x2048x14336, .f32⟩
  | .hbm, ⟨33, _⟩ => ⟨S_, .f32⟩
  | .hbm, ⟨34, _⟩ => ⟨S4x2048x14336, .f32⟩
  | .hbm, ⟨35, _⟩ => ⟨S4x2048x14336, .f32⟩
  | .hbm, ⟨36, _⟩ => ⟨S4x2048x14336, .f32⟩
  | .hbm, ⟨37, _⟩ => ⟨S_, .f32⟩
  | .hbm, ⟨38, _⟩ => ⟨S4x2048x14336, .f32⟩
  | .hbm, ⟨39, _⟩ => ⟨S4x2048x14336, .f32⟩
  | .hbm, ⟨40, _⟩ => ⟨S_, .f32⟩
  | .hbm, ⟨41, _⟩ => ⟨S4x2048x14336, .f32⟩
  | .hbm, ⟨42, _⟩ => ⟨S4x2048x14336, .f32⟩
  | .hbm, ⟨43, _⟩ => ⟨S4x2048x14336, .f32⟩
  | .hbm, ⟨44, _⟩ => ⟨S4x2048x14336, .f32⟩
  | .hbm, ⟨45, _⟩ => ⟨S4x2048x3584, .f32⟩
  | _, _ => ⟨S4x2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  shapeCasts_S14336x3584_S14336x28x128 : S14336x3584.ShapeCasts S14336x28x128
  bcast_S14336x28_S14336x28x1_0_1 : S14336x28.BroadcastsInDim S14336x28x1 (![0, 1] : Fin 2 → Fin S14336x28x1.rank)
  bcast_S14336x28x1_S14336x28x128_0_1_2 : S14336x28x1.BroadcastsInDim S14336x28x128 (![0, 1, 2] : Fin 3 → Fin S14336x28x128.rank)
  shapeCasts_S14336x28x128_S14336x3584 : S14336x28x128.ShapeCasts S14336x3584
  shapeCasts_S3584x14336_S3584x112x128 : S3584x14336.ShapeCasts S3584x112x128
  bcast_S3584x112_S3584x112x1_0_1 : S3584x112.BroadcastsInDim S3584x112x1 (![0, 1] : Fin 2 → Fin S3584x112x1.rank)
  bcast_S3584x112x1_S3584x112x128_0_1_2 : S3584x112x1.BroadcastsInDim S3584x112x128 (![0, 1, 2] : Fin 3 → Fin S3584x112x128.rank)
  shapeCasts_S3584x112x128_S3584x14336 : S3584x112x128.ShapeCasts S3584x14336
  bcast_S_S4x2048x14336 : S_.BroadcastsInDim S4x2048x14336 (![] : Fin 0 → Fin S4x2048x14336.rank)
  dot_S4x2048x3584_S14336x3584_S4x2048x14336_2_1_01_0_n_n_wf : DotDims.WF S4x2048x3584 S14336x3584 S4x2048x14336 [2] [1] [0, 1] [0] [] []
  dot_S4x2048x14336_S3584x14336_S4x2048x3584_2_1_01_0_n_n_wf : DotDims.WF S4x2048x14336 S3584x14336 S4x2048x3584 [2] [1] [0, 1] [0] [] []

variable [Facts₀]

def dot_S4x2048x3584_S14336x3584_S4x2048x14336_2_1_01_0_n_n : DotDims S4x2048x3584 S14336x3584 S4x2048x14336 where
  lhsContracting := [2]
  rhsContracting := [1]
  lhsNonContracting := [0, 1]
  rhsNonContracting := [0]
  lhsBatch := []
  rhsBatch := []
  wf := dot_S4x2048x3584_S14336x3584_S4x2048x14336_2_1_01_0_n_n_wf
def dot_S4x2048x14336_S3584x14336_S4x2048x3584_2_1_01_0_n_n : DotDims S4x2048x14336 S3584x14336 S4x2048x3584 where
  lhsContracting := [2]
  rhsContracting := [1]
  lhsNonContracting := [0, 1]
  rhsNonContracting := [0]
  lhsBatch := []
  rhsBatch := []
  wf := dot_S4x2048x14336_S3584x14336_S4x2048x3584_2_1_01_0_n_n_wf

class Facts : Prop extends Facts₀ where

variable [Facts]
-- ==== Proof.KRun.lean ====
/-
  The kernel program's run, with the RESULT read.

  The program is two host lines (a reshape of the input to rows, a transposed copy of the down projection's
  scales), two kernel regions (gate/up projections with the activation; the down projection), and a closing
  reshape.  Every weakly fair execution terminates, and in the final memory every buffer that lives outside a
  region holds the contents the last segment boundary assigns to it: the fold of the host lines and of the two
  regions' write-backs from the launch memory.  In particular the result buffer holds that fold's value, and the
  seven arguments hold their launch contents.
-/
import proofs.«127540_j71700184040135_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with every buffer outside the regions at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the result buffer named: it ends at the last boundary's contents of the result buffer, the
    arguments at their launch contents. -/
theorem run_result : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)
    (run_all m ρ)

end Cert.KernelIdeal.RunValue

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibQuantBlock.lean ====
/-
  A quantised weight block, read at an index.

  A matrix of `r` rows and `g · c` columns is stored as integers with one scale per row and per group of `c`
  consecutive columns.  Dequantising it is: read the integers signed, view the `[r, g · c]` array as `[r, g, c]`,
  view the `[r, g]` scales as `[r, g, 1]` and repeat each along the lane axis to `[r, g, c]`, multiply entry by
  entry, and view the product as `[r, g · c]` again.  Entry `(p, k)` of the result is the integer at `(p, k)`
  times the scale at `(p, k / c)`.  The scales may also arrive transposed, `[g, r]`.

  The layout steps are stated one by one at any extents (the two views between `[r, n]` and `[r, g, c]` with
  `n = g · c`: column `k = a · c + l` is lane `l` of group `a`; the trailing unit axis; the lane broadcast), then
  the whole term on the extended reals, with the scales as given or transposed, in the vector unit's spelling.
  A product `l · rᵀ` (second axes contracted) into a zero accumulator reads at `(q, d)` the sum over `p` of
  `l (q, p) · r (d, p)`, whatever the operands' float formats.
-/
import Idealize.ShloMosaic.PureOps.Ideal.Laws
import Idealize.ShloMosaic.Lib.ValueIdx
import Idealize.ShloMosaic.Lib.ValueLayout
import Idealize.ShloMosaic.Lib.Pipeline.Value
import proofs.«127540_j71700184040135_1_alg».proof.Proof.LibRowBlocks

noncomputable section

open scoped BigOperators

namespace Cert.QuantBlock

open Idealize.ShloMosaic Idealize.ShloMosaic.ValueIdx

variable {α : Type}

/-- `[r, n]` viewed `[r, g, c]` (`n = g · c`): entry `(q, a, l)` is column `k = a · c + l` of row `q`. -/
theorem shapeCast_splitCols_apply {r g c n : ℕ} (x : (⟨2, ![r, n]⟩ : Shape).Idx → α)
    (h : (⟨2, ![r, n]⟩ : Shape).ShapeCasts ⟨3, ![r, g, c]⟩) (q : Fin r) (a : Fin g) (l : Fin c) (k : Fin n)
    (hn : n = g * c) (hk : k.val = a.val * c + l.val) : shapeCast ⟨3, ![r, g, c]⟩ x h (ix3 q a l) = x (ix2 q k) :=
  shapeCast_apply x h _ _ (by
    rw [Shape.rowMajor_val_three, Shape.rowMajor_val_two]
    show q.val * n + k.val = (q.val * g + a.val) * c + l.val
    rw [hk, hn]; ring)

/-- `[r, g, c]` viewed `[r, n]` (`n = g · c`): column `k = a · c + l` of row `q` is entry `(q, a, l)`. -/
theorem shapeCast_mergeCols_apply {r g c n : ℕ} (x : (⟨3, ![r, g, c]⟩ : Shape).Idx → α)
    (h : (⟨3, ![r, g, c]⟩ : Shape).ShapeCasts ⟨2, ![r, n]⟩) (q : Fin r) (a : Fin g) (l : Fin c) (k : Fin n)
    (hn : n = g * c) (hk : k.val = a.val * c + l.val) : shapeCast ⟨2, ![r, n]⟩ x h (ix2 q k) = x (ix3 q a l) :=
  shapeCast_apply x h _ _ (by
    rw [Shape.rowMajor_val_three, Shape.rowMajor_val_two]
    show (q.val * g + a.val) * c + l.val = q.val * n + k.val
    rw [hk, hn]; ring)

/-- `[r, g]` viewed `[r, g, 1]`. -/
theorem shapeCast_unitLane_apply {r g : ℕ} (x : (⟨2, ![r, g]⟩ : Shape).Idx → α)
    (h : (⟨2, ![r, g]⟩ : Shape).ShapeCasts ⟨3, ![r, g, 1]⟩) (q : Fin r) (a : Fin g) (u : Fin 1) :
    shapeCast ⟨3, ![r, g, 1]⟩ x h (ix3 q a u) = x (ix2 q a) :=
  shapeCast_apply x h _ _ (by
    have hu : u.val = 0 := by omega
    rw [Shape.rowMajor_val_three, Shape.rowMajor_val_two]
    show q.val * g + a.val = (q.val * g + a.val) * 1 + u.val
    rw [hu]; ring)

/-- `[r, g, 1]` repeated along the lane axis to `[r, g, c]`. -/
theorem broadcastTo_lane_apply {r g c : ℕ} (x : (⟨3, ![r, g, 1]⟩ : Shape).Idx → α)
    (h : (⟨3, ![r, g, 1]⟩ : Shape).Broadcasts ⟨3, ![r, g, c]⟩) (q : Fin r) (a : Fin g) (l : Fin c) :
    broadcastTo ⟨3, ![r, g, c]⟩ x h (ix3 q a l) = x (ix3 q a (0 : Fin 1)) := by
  refine broadcastTo_apply x h (ix3 q a l) (ix3 q a (0 : Fin 1)) fun ax => ?_
  match ax with
  | ⟨0, _⟩ =>
    show q.val = if r = 1 then 0 else q.val
    split
    · have := q.isLt; omega
    · rfl
  | ⟨1, _⟩ =>
    show a.val = if g = 1 then 0 else a.val
    split
    · have := a.isLt; omega
    · rfl
  | ⟨2, _⟩ =>
    show (0 : ℕ) = if (1 : ℕ) = 1 then 0 else l.val
    rw [if_pos rfl]

/-- The group of a column. -/
abbrev grp {g c : ℕ} (k : Fin (g * c)) : Fin g :=
  ⟨k.val / c, Nat.div_lt_of_lt_mul (lt_of_lt_of_eq k.isLt (Nat.mul_comm g c))⟩

/-- THE DEQUANTISED BLOCK on the extended reals: the integer, read signed, times its row's and group's scale. -/
theorem dequant_apply {r g c : ℕ} (hc : 0 < c) (qw : IVec (⟨2, ![r, g * c]⟩ : Shape) 32) (s : FVec Ideal ⟨2, ![r, g]⟩ .f32)
    (h1 : (⟨2, ![r, g * c]⟩ : Shape).ShapeCasts ⟨3, ![r, g, c]⟩) (h2 : (⟨2, ![r, g]⟩ : Shape).ShapeCasts ⟨3, ![r, g, 1]⟩)
    (h3 : (⟨3, ![r, g, 1]⟩ : Shape).Broadcasts ⟨3, ![r, g, c]⟩) (h4 : (⟨3, ![r, g, c]⟩ : Shape).ShapeCasts ⟨2, ![r, g * c]⟩)
    (p : Fin r) (k : Fin (g * c)) :
    shapeCast ⟨2, ![r, g * c]⟩ (mulf (F := Ideal) (φ := .f32) (shapeCast ⟨3, ![r, g, c]⟩ (sitofp (F := Ideal) .f32 qw) h1)
      (broadcastTo ⟨3, ![r, g, c]⟩ (shapeCast ⟨3, ![r, g, 1]⟩ s h2) h3)) h4 (ix2 p k)
      = (((qw (ix2 p k)).toInt : ℝ) : EReal) * s (ix2 p (grp k)) := by
  have hk : k.val = (grp k).val * c + (⟨k.val % c, Nat.mod_lt _ hc⟩ : Fin c).val := (Nat.div_add_mod' k.val c).symm
  rw [shapeCast_mergeCols_apply _ h4 p (grp k) ⟨k.val % c, Nat.mod_lt _ hc⟩ k rfl hk]
  show FloatOps.mulf (shapeCast ⟨3, ![r, g, c]⟩ (sitofp (F := Ideal) .f32 qw) h1 (ix3 p (grp k) ⟨k.val % c, Nat.mod_lt _ hc⟩))
      (broadcastTo ⟨3, ![r, g, c]⟩ (shapeCast ⟨3, ![r, g, 1]⟩ s h2) h3 (ix3 p (grp k) ⟨k.val % c, Nat.mod_lt _ hc⟩)) = _
  rw [shapeCast_splitCols_apply _ h1 p (grp k) ⟨k.val % c, Nat.mod_lt _ hc⟩ k rfl hk, broadcastTo_lane_apply,
    shapeCast_unitLane_apply]
  rfl

/-- The same with the scales arriving transposed, `[g, r]`: the scale of row `p` and group `a` is entry `(a, p)`. -/
theorem dequantT_apply {r g c : ℕ} (hc : 0 < c) (qw : IVec (⟨2, ![r, g * c]⟩ : Shape) 32) (st : FVec Ideal ⟨2, ![g, r]⟩ .f32)
    (ht : (⟨2, ![g, r]⟩ : Shape).Transposes [1, 0] ⟨2, ![r, g]⟩)
    (h1 : (⟨2, ![r, g * c]⟩ : Shape).ShapeCasts ⟨3, ![r, g, c]⟩) (h2 : (⟨2, ![r, g]⟩ : Shape).ShapeCasts ⟨3, ![r, g, 1]⟩)
    (h3 : (⟨3, ![r, g, 1]⟩ : Shape).Broadcasts ⟨3, ![r, g, c]⟩) (h4 : (⟨3, ![r, g, c]⟩ : Shape).ShapeCasts ⟨2, ![r, g * c]⟩)
    (p : Fin r) (k : Fin (g * c)) :
    shapeCast ⟨2, ![r, g * c]⟩ (mulf (F := Ideal) (φ := .f32) (shapeCast ⟨3, ![r, g, c]⟩ (sitofp (F := Ideal) .f32 qw) h1)
      (broadcastTo ⟨3, ![r, g, c]⟩ (shapeCast ⟨3, ![r, g, 1]⟩ (transpose ⟨2, ![r, g]⟩ [1, 0] st ht) h2) h3)) h4 (ix2 p k)
      = (((qw (ix2 p k)).toInt : ℝ) : EReal) * st (ix2 (grp k) p) := by
  rw [dequant_apply hc qw (transpose ⟨2, ![r, g]⟩ [1, 0] st ht) h1 h2 h3 h4 p k, transpose_ix2_apply]

/-- `l · rᵀ` into a zero accumulator, whatever the operands' formats: at `(q, d)` the sum over `p` of `l (q, p) · r (d, p)`. -/
theorem matmul_abT_apply {M K N : ℕ} {φ₁ φ₂ : FTy} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ φ₁) (r : FVec Ideal ⟨2, ![N, K]⟩ φ₂)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (Cert.RowBlocks.abT_sum D h1 h2 h3 h4 h5 h6 l r q d)

end Cert.QuantBlock

end
-- ==== Proof.Spec.lean ====
/-
  The quantised gated MLP as one function of the argument arrays, token by token.

  A weight matrix is stored as integers with one scale per row and per group of 128 consecutive input
  columns: entry `(r, h)` of the real matrix is the integer at `(r, h)`, read signed, times the scale at
  `(r, h / 128)`.  For a token with features `x : Fin 3584 → EReal`,
    `g i = ∑ h, x h · gw i h`,  `u i = ∑ h, x h · uw i h`   (the gate and up projections, `i : Fin 14336`),
    `hid i = act (g i) (u i)`, the tanh form of GELU of the gate times the up projection,
    `out o = ∑ i, hid i · dw o i`                          (the down projection, `o : Fin 3584`).
  Everything is on the extended reals; the four float literals are kept as their words.

  The two laws of sums a blocked evaluation of the down projection uses: a sum over `n · b` indices is the
  sum over `n` blocks of the sums over each block's `b` indices, and a running total started at zero and
  increased block after block is the sum over the blocks so far.  Both hold in any additive commutative
  monoid, so no finiteness is asked of the entries.
-/
import Idealize.ShloMosaic.PureOps.Ideal
import Idealize.ShloMosaic.Lib.ValueIdx

noncomputable section

open scoped BigOperators

namespace Cert.GatedMlp

open Idealize.ShloMosaic Idealize.ShloMosaic.ValueIdx

/-- Entry `(r, h)` of a quantised matrix of `R` rows and `G` groups of 128 columns: the integer read signed,
    times the scale of its row and group. -/
def deq {R G : ℕ} (q : (⟨2, ![R, G * 128]⟩ : Shape).Idx → BitVec 32) (s : (⟨2, ![R, G]⟩ : Shape).Idx → EReal)
    (r : Fin R) (h : Fin (G * 128)) : EReal :=
  (((q (ix2 r h)).toInt : ℝ) : EReal)
    * s (ix2 r (⟨h.val / 128, Nat.div_lt_of_lt_mul (by have := h.isLt; omega)⟩ : Fin G))

/-- The activation: `g · (½ · (1 + tanh (c₁ · (g + c₀ · (g · (g · g))))))`, times `u`; `c₀` is the float
    nearest 0.044715, `c₁` the float nearest `√(2/π)`, both kept as their words. -/
def act (g u : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * (g * g)))))) * u

/-- One row of a projection: `∑ h, x h · w i h`. -/
def proj {K N : ℕ} (x : Fin K → EReal) (w : Fin N → Fin K → EReal) (i : Fin N) : EReal := ∑ h : Fin K, x h * w i h

/-- The hidden activations of a token. -/
def hidTok {K N : ℕ} (x : Fin K → EReal) (gw uw : Fin N → Fin K → EReal) (i : Fin N) : EReal :=
  act (proj x gw i) (proj x uw i)

/-- The output of a token. -/
def outTok {K N M : ℕ} (x : Fin K → EReal) (gw uw : Fin N → Fin K → EReal) (dw : Fin M → Fin N → EReal) (o : Fin M) : EReal :=
  ∑ i : Fin N, hidTok x gw uw i * dw o i

/-- The whole result: token `(b, s)` of the input, output feature `o`. -/
def G (x : (⟨3, ![4, 2048, 3584]⟩ : Shape).Idx → EReal)
    (gq : (⟨2, ![14336, 28 * 128]⟩ : Shape).Idx → BitVec 32) (gs : (⟨2, ![14336, 28]⟩ : Shape).Idx → EReal)
    (uq : (⟨2, ![14336, 28 * 128]⟩ : Shape).Idx → BitVec 32) (us : (⟨2, ![14336, 28]⟩ : Shape).Idx → EReal)
    (dq : (⟨2, ![3584, 112 * 128]⟩ : Shape).Idx → BitVec 32) (ds : (⟨2, ![3584, 112]⟩ : Shape).Idx → EReal) :
    (⟨3, ![4, 2048, 3584]⟩ : Shape).Idx → EReal :=
  fun j => outTok (fun h : Fin 3584 => x (ix3 (j 0) (j 1) h)) (deq gq gs) (deq uq us) (deq dq ds) (j 2)

theorem G_apply (x : (⟨3, ![4, 2048, 3584]⟩ : Shape).Idx → EReal)
    (gq : (⟨2, ![14336, 28 * 128]⟩ : Shape).Idx → BitVec 32) (gs : (⟨2, ![14336, 28]⟩ : Shape).Idx → EReal)
    (uq : (⟨2, ![14336, 28 * 128]⟩ : Shape).Idx → BitVec 32) (us : (⟨2, ![14336, 28]⟩ : Shape).Idx → EReal)
    (dq : (⟨2, ![3584, 112 * 128]⟩ : Shape).Idx → BitVec 32) (ds : (⟨2, ![3584, 112]⟩ : Shape).Idx → EReal)
    (b : Fin 4) (s : Fin 2048) (o : Fin 3584) :
    G x gq gs uq us dq ds (ix3 b s o)
      = outTok (fun h : Fin 3584 => x (ix3 b s h)) (deq gq gs) (deq uq us) (deq dq ds) o := rfl

/-! ## Sums in blocks -/

section sums
variable {M : Type} [AddCommMonoid M]

/-- A sum over `n · b` indices, block by block. -/
theorem sum_blocks (n b : ℕ) (f : Fin (n * b) → M) :
    ∑ i : Fin (n * b), f i
      = ∑ j : Fin n, ∑ k : Fin b, f ⟨j.val * b + k.val, by
          have hj := j.isLt; have hk := k.isLt
          calc j.val * b + k.val < j.val * b + b := by omega
            _ = (j.val + 1) * b := by ring
            _ ≤ n * b := Nat.mul_le_mul_right b (by omega)⟩ := by
  rw [← (finProdFinEquiv (m := n) (n := b)).sum_comp f, ← Finset.univ_product_univ, Finset.sum_product]
  refine Finset.sum_congr rfl fun j _ => Finset.sum_congr rfl fun k _ => congrArg f (Fin.ext ?_)
  show k.val + b * j.val = j.val * b + k.val
  ring

/-- A running total from zero: after the first `n + 1` increments it is their sum. -/
theorem running_total (S : ℕ → M) (acc : ℕ → M) (h0 : acc 0 = 0 + S 0) (hs : ∀ n, acc (n + 1) = acc n + S (n + 1)) (n : ℕ) :
    acc n = ∑ j ∈ Finset.range (n + 1), S j := by
  induction n with
  | zero => rw [h0, zero_add, Finset.sum_range_one]
  | succ n ih => rw [hs, ih, Finset.sum_range_succ _ (n + 1)]

end sums

end Cert.GatedMlp

end
-- ==== Proof.UpArray.lean ====
/-
  The gate/up region's output array as one function of the arrays the region finds.

  The region runs over an 8 by 112 grid.  At point `t`, with `bi = t / 112` and `ni = t % 112`, the body reads the
  block of 1024 token rows `bi · 1024 …` (all 3584 features), the blocks of 128 rows `ni · 128 …` of the gate and
  up weights (integers, 28 groups of 128 columns) and of their scales, and stores the 1024 by 128 block of the
  hidden array at rows `bi · 1024 …` and columns `ni · 128 …`.  Entry `(p, q)` of the stored block is the
  activation of `∑ h, x (p, h) · wg (q, h)` and `∑ h, x (p, h) · wu (q, h)`, a dequantised weight entry being the
  integer read signed times the scale of its row and group of 128 columns; the changes of float format are the
  identity on the extended reals.  So the stored block is the block of one function of the whole arrays,
  `upArr`: entry `(r, i)` is the activation of token row `r`'s gate and up projections onto hidden unit `i`.
  Every point writes its block back and the blocks cover the array (index `(r, i)` lies in the block of
  `bi = r / 1024`, `ni = i / 128`), so after the region the hidden array is `upArr` of the arrays it found.
-/
import proofs.«127540_j71700184040135_1_alg».proof.Proof.Gen.KernelIdeal.Frame
import proofs.«127540_j71700184040135_1_alg».proof.Proof.LibQuantBlock
import proofs.«127540_j71700184040135_1_alg».proof.Proof.Spec
import Idealize.ShloMosaic.Lib.Pipeline.Value
import Idealize.ShloMosaic.Lib.ValueIdx

set_option maxRecDepth 16384

noncomputable section

open scoped BigOperators

namespace Cert.KernelIdeal.UpValue

open Cert.KernelIdeal Cert.KernelIdeal.Gen
open Idealize.ShloMosaic Idealize.ShloMosaic.TcCoe Idealize.SL.Sem Idealize.ShloMosaic.ValueIdx
open Idealize.ShloMosaic.Pipeline (Dat)
open Cert.GatedMlp (deq act proj hidTok)

/-! ## The body's arithmetic at an index -/

/-- A dequantised weight block: the integers read signed, in 28 groups of 128 lanes, each group times its scale. -/
abbrev deqBlk (qw : Vec Ideal S128x3584 .i32) (sc : Vec Ideal S128x28 .f32) : FVec Ideal S128x3584 .f32 :=
  shapeCast S128x3584 (mulf (shapeCast S128x28x128 (sitofp .f32 qw) shapeCasts_S128x3584_S128x28x128)
    (broadcastTo S128x28x128 (shapeCast S128x28x1 sc shapeCasts_S128x28_S128x28x1) broadcasts_S128x28x1_S128x28x128))
    shapeCasts_S128x28x128_S128x3584

/-- The stored block is, entry by entry, the activation of the two products of the token block with the
    dequantised weight blocks; the changes of float format are the identity on the extended reals. -/
theorem pay1_shape (v0 : Vec Ideal S1024x3584 .bf16) (v2 : Vec Ideal S128x3584 .i32) (v5 : Vec Ideal S128x28 .f32)
    (v11 : Vec Ideal S128x3584 .i32) (v14 : Vec Ideal S128x28 .f32) (i : S1024x128.Idx) :
    k0_pay1 (F := Ideal) v0 v2 v5 v11 v14 i
      = act (matmul (F := Ideal) (φ₁ := .bf16) (φ₂ := .bf16) dot_S1024x3584_S128x3584_S1024x128_1_1_0_0_n_n none
              (shapeCast S1024x3584 v0 shapeCasts_S1024x3584_S1024x3584)
              (truncf .bf16 (deqBlk v2 v5) bitsLt_bf16_f32) (constant S1024x128 .f32 0x00000000#32) i)
            (matmul (F := Ideal) (φ₁ := .bf16) (φ₂ := .bf16) dot_S1024x3584_S128x3584_S1024x128_1_1_0_0_n_n none
              (shapeCast S1024x3584 v0 shapeCasts_S1024x3584_S1024x3584)
              (truncf .bf16 (deqBlk v11 v14) bitsLt_bf16_f32) (constant S1024x128 .f32 0x00000000#32) i) := rfl

/-- Entry `(q, h)` of a dequantised weight block. -/
theorem deqBlk_apply (qw : Vec Ideal S128x3584 .i32) (sc : Vec Ideal S128x28 .f32) (q : Fin 128) (h : Fin 3584) :
    deqBlk qw sc (ix2 q h) = deq (R := 128) (G := 28) qw sc q h :=
  Cert.QuantBlock.dequant_apply (r := 128) (g := 28) (c := 128) (by decide) qw sc
    shapeCasts_S128x3584_S128x28x128 shapeCasts_S128x28_S128x28x1 broadcasts_S128x28x1_S128x28x128
    shapeCasts_S128x28x128_S128x3584 q h

/-- The stored block at `(p, q)`: the activation of token row `p`'s products with rows `q` of the two
    dequantised weight blocks. -/
theorem pay1_apply (v0 : Vec Ideal S1024x3584 .bf16) (v2 : Vec Ideal S128x3584 .i32) (v5 : Vec Ideal S128x28 .f32)
    (v11 : Vec Ideal S128x3584 .i32) (v14 : Vec Ideal S128x28 .f32) (p : Fin 1024) (q : Fin 128) :
    k0_pay1 (F := Ideal) v0 v2 v5 v11 v14 (ix2 p q)
      = act (∑ h : Fin 3584, v0 (ix2 p h) * deq (R := 128) (G := 28) v2 v5 q h)
          (∑ h : Fin 3584, v0 (ix2 p h) * deq (R := 128) (G := 28) v11 v14 q h) := by
  have hm : ∀ (qw : Vec Ideal S128x3584 .i32) (sc : Vec Ideal S128x28 .f32),
      matmul (F := Ideal) (φ₁ := .bf16) (φ₂ := .bf16) dot_S1024x3584_S128x3584_S1024x128_1_1_0_0_n_n none
          (shapeCast S1024x3584 v0 shapeCasts_S1024x3584_S1024x3584)
          (truncf .bf16 (deqBlk qw sc) bitsLt_bf16_f32) (constant S1024x128 .f32 0x00000000#32) (ix2 p q)
        = ∑ h : Fin 3584, v0 (ix2 p h) * deq (R := 128) (G := 28) qw sc q h := fun qw sc => by
    refine (Cert.QuantBlock.matmul_abT_apply dot_S1024x3584_S128x3584_S1024x128_1_1_0_0_n_n rfl rfl rfl rfl rfl rfl none
      (shapeCast S1024x3584 v0 shapeCasts_S1024x3584_S1024x3584) (truncf .bf16 (deqBlk qw sc) bitsLt_bf16_f32) p q).trans ?_
    refine Finset.sum_congr rfl fun h _ => ?_
    rw [shapeCast_self]
    show v0 (ix2 p h) * deqBlk qw sc (ix2 q h) = _
    rw [deqBlk_apply]
  rw [pay1_shape, hm, hm]

/-! ## The hidden array -/

/-- entry (r, i) of the hidden array: the activation of token row r's gate and up projections onto hidden unit i -/
def upArr (X : S8192x3584.Idx → EReal) (gq : S14336x3584.Idx → BitVec 32) (gs : S14336x28.Idx → EReal)
    (uq : S14336x3584.Idx → BitVec 32) (us : S14336x28.Idx → EReal) : S8192x14336.Idx → EReal :=
  fun j => hidTok (fun h : Fin 3584 => X (ix2 (j 0) h)) (deq (R := 14336) (G := 28) gq gs) (deq (R := 14336) (G := 28) uq us) (j 1)

theorem upArr_apply (X : S8192x3584.Idx → EReal) (gq : S14336x3584.Idx → BitVec 32) (gs : S14336x28.Idx → EReal)
    (uq : S14336x3584.Idx → BitVec 32) (us : S14336x28.Idx → EReal) (r : Fin 8192) (i : Fin 14336) :
    upArr X gq gs uq us (ix2 r i)
      = hidTok (fun h : Fin 3584 => X (ix2 r h)) (deq (R := 14336) (G := 28) gq gs) (deq (R := 14336) (G := 28) uq us) i := rfl

/-- One entry of a stored block: when row `p` of the token block is row `r` of the token array and rows `q` of
    the weight and scale blocks are rows `i` of the weight and scale arrays, entry `(p, q)` of the stored block is
    entry `(r, i)` of the hidden array. -/
theorem block_entry (X : S8192x3584.Idx → EReal) (gq : S14336x3584.Idx → BitVec 32) (gs : S14336x28.Idx → EReal)
    (uq : S14336x3584.Idx → BitVec 32) (us : S14336x28.Idx → EReal)
    (x0 : Vec Ideal S1024x3584 .bf16) (x1 : Vec Ideal S128x3584 .i32) (x2 : Vec Ideal S128x28 .f32)
    (x3 : Vec Ideal S128x3584 .i32) (x4 : Vec Ideal S128x28 .f32)
    (r : Fin 8192) (i : Fin 14336) (p : Fin 1024) (q : Fin 128)
    (h0 : ∀ h : Fin 3584, x0 (ix2 p h) = X (ix2 r h))
    (h1 : ∀ h : Fin 3584, x1 (ix2 q h) = gq (ix2 i h))
    (h2 : ∀ g : Fin 28, x2 (ix2 q g) = gs (ix2 i g))
    (h3 : ∀ h : Fin 3584, x3 (ix2 q h) = uq (ix2 i h))
    (h4 : ∀ g : Fin 28, x4 (ix2 q g) = us (ix2 i g)) :
    k0_pay1 (F := Ideal) x0 x1 x2 x3 x4 (ix2 p q) = upArr X gq gs uq us (ix2 r i) := by
  rw [pay1_apply, upArr_apply]
  unfold hidTok proj
  congr 1
  · refine Finset.sum_congr rfl fun h _ => ?_
    unfold deq
    rw [h0, h1, h2]
  · refine Finset.sum_congr rfl fun h _ => ?_
    unfold deq
    rw [h0, h3, h4]

/-! ## The grid -/

theorem hz : (![0, 0] : Fin 2 → Nat) = fun _ => 0 := funext fun a => by fin_cases a <;> rfl

/-- The block indices over the grid: the token block moves with the stored block's rows, the weight and scale
    blocks with its columns, and point `t` stores the block of row index `t / 112` and column index `t % 112`. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = win0_5.index t (1 : Fin 2) ∧ win0_4.index t (1 : Fin 2) = 0
    ∧ win0_5.index t (0 : Fin 2) = t.val / 112 ∧ win0_5.index t (1 : Fin 2) = t.val % 112 :=
  (by decide +kernel : ∀ t : Fin grid0.N, _)

/-! ## From blocks to the array -/

section
variable (V : (c : Dev nD) → (b : Ref sig .tc) → Buf (Elt Ideal) ((c : Thread nD τ).loc b))

/-- What point `t` writes back is block `t` of the hidden array computed from the arrays the region finds:
    row `p` of the token block at `t` is row `(t / 112) · 1024 + p` of the token array, rows `q` of the weight
    and scale blocks are rows `(t % 112) · 128 + q` of theirs, and the stored block sits at those rows and columns. -/
theorem flushed_eq (c : Dev nD) (t : Fin cfg0.N) :
    (dat0 (F := Ideal) V c).flushed 5 t = ((cfg0.win 5).blk t).view.read (Elt Ideal)
      (upArr (V c main_v1) (V c main_arg1) (V c main_arg2) (V c main_arg3) (V c main_arg4)) := by
  show (cfg0.win 5).cut (grid0.coords t) ((dat0 V c).after 5 t) = _
  rw [after0_5]
  unfold out0_5
  rw [View.canon_unit_zero hz]
  simp only [View.ld_unit_zero (S := S1024x3584) hz, View.ld_unit_zero (S := S128x3584) hz, View.ld_unit_zero (S := S128x28) hz]
  obtain ⟨e00, e01, e10, e11, e20, e21, e30, e31, e40, e41, b0, b1⟩ := idx_facts t
  have ht : t.val < 896 := lt_of_lt_of_eq t.isLt N_0
  funext y
  obtain ⟨p, q, rfl⟩ : ∃ (p : Fin 1024) (q : Fin 128), y = ix2 p q := ⟨y 0, y 1, eq_ix2 y⟩
  have hp := p.isLt
  have hq := q.isLt
  have hr : win0_5.index t (0 : Fin 2) * 1024 + p.val < 8192 := by omega
  have hi : win0_5.index t (1 : Fin 2) * 128 + q.val < 14336 := by omega

  have h0 : ∀ h : Fin 3584, (iblk0 V c 0 t : Vec Ideal S1024x3584 .bf16) (ix2 p h) = V c main_v1 (ix2 (⟨_, hr⟩ : Fin 8192) h) := fun h => by
    show V c main_v1 (((cfg0.win 0).blk t).view.emb (ix2 p h)) = _
    refine congrArg _ (funext fun a => Fin.ext ?_)
    match a with
    | ⟨0, _⟩ => show win0_0.index t (0 : Fin 2) * 1024 + 1 * p.val = win0_5.index t (0 : Fin 2) * 1024 + p.val; omega
    | ⟨1, _⟩ => show win0_0.index t (1 : Fin 2) * 3584 + 1 * h.val = h.val; omega

  have h1 : ∀ h : Fin 3584, (iblk0 V c 1 t : Vec Ideal S128x3584 .i32) (ix2 q h) = V c main_arg1 (ix2 (⟨_, hi⟩ : Fin 14336) h) := fun h => by
    show V c main_arg1 (((cfg0.win 1).blk t).view.emb (ix2 q h)) = _
    refine congrArg _ (funext fun a => Fin.ext ?_)
    match a with
    | ⟨0, _⟩ => show win0_1.index t (0 : Fin 2) * 128 + 1 * q.val = win0_5.index t (1 : Fin 2) * 128 + q.val; omega
    | ⟨1, _⟩ => show win0_1.index t (1 : Fin 2) * 3584 + 1 * h.val = h.val; omega

  have h2 : ∀ h : Fin 28, (iblk0 V c 2 t : Vec Ideal S128x28 .f32) (ix2 q h) = V c main_arg2 (ix2 (⟨_, hi⟩ : Fin 14336) h) := fun h => by
    show V c main_arg2 (((cfg0.win 2).blk t).view.emb (ix2 q h)) = _
    refine congrArg _ (funext fun a => Fin.ext ?_)
    match a with
    | ⟨0, _⟩ => show win0_2.index t (0 : Fin 2) * 128 + 1 * q.val = win0_5.index t (1 : Fin 2) * 128 + q.val; omega
    | ⟨1, _⟩ => show win0_2.index t (1 : Fin 2) * 28 + 1 * h.val = h.val; omega

  have h3 : ∀ h : Fin 3584, (iblk0 V c 3 t : Vec Ideal S128x3584 .i32) (ix2 q h) = V c main_arg3 (ix2 (⟨_, hi⟩ : Fin 14336) h) := fun h => by
    show V c main_arg3 (((cfg0.win 3).blk t).view.emb (ix2 q h)) = _
    refine congrArg _ (funext fun a => Fin.ext ?_)
    match a with
    | ⟨0, _⟩ => show win0_3.index t (0 : Fin 2) * 128 + 1 * q.val = win0_5.index t (1 : Fin 2) * 128 + q.val; omega
    | ⟨1, _⟩ => show win0_3.index t (1 : Fin 2) * 3584 + 1 * h.val = h.val; omega

  have h4 : ∀ h : Fin 28, (iblk0 V c 4 t : Vec Ideal S128x28 .f32) (ix2 q h) = V c main_arg4 (ix2 (⟨_, hi⟩ : Fin 14336) h) := fun h => by
    show V c main_arg4 (((cfg0.win 4).blk t).view.emb (ix2 q h)) = _
    refine congrArg _ (funext fun a => Fin.ext ?_)
    match a with
    | ⟨0, _⟩ => show win0_4.index t (0 : Fin 2) * 128 + 1 * q.val = win0_5.index t (1 : Fin 2) * 128 + q.val; omega
    | ⟨1, _⟩ => show win0_4.index t (1 : Fin 2) * 28 + 1 * h.val = h.val; omega
  refine (block_entry (V c main_v1) (V c main_arg1) (V c main_arg2) (V c main_arg3) (V c main_arg4)
    (iblk0 V c 0 t) (iblk0 V c 1 t) (iblk0 V c 2 t) (iblk0 V c 3 t) (iblk0 V c 4 t)
    ⟨_, hr⟩ ⟨_, hi⟩ p q h0 h1 h2 h3 h4).trans ?_
  show _ = upArr (V c main_v1) (V c main_arg1) (V c main_arg2) (V c main_arg3) (V c main_arg4)
    (((cfg0.win 5).blk t).view.emb (ix2 p q))
  refine congrArg _ (funext fun a => Fin.ext ?_)
  match a with
  | ⟨0, _⟩ => show win0_5.index t (0 : Fin 2) * 1024 + p.val = win0_5.index t (0 : Fin 2) * 1024 + 1 * p.val; omega
  | ⟨1, _⟩ => show win0_5.index t (1 : Fin 2) * 128 + q.val = win0_5.index t (1 : Fin 2) * 128 + 1 * q.val; omega

/-- An index of the hidden array is in point `t`'s block iff each coordinate is in the block's range on its axis. -/
theorem mem_blk (t : Fin cfg0.N) (i : S8192x14336.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v3).slice (win0_5.rect t)).set ↔ _
  rw [View.set_slice_whole, Rect.mem_set_unit]
  exact Iff.rfl

/-- Every index `(r, i)` of the hidden array is in the block of the point with row index `r / 1024` and column
    index `i / 128`, which writes back as every point does. -/
theorem cover (i : S8192x14336.Idx) :
    ∃ t : Fin cfg0.N, (cfg0.win 5).flush t = true ∧ i ∈ ((cfg0.win 5).blk t).view.set := by
  have hi0 : (i 0).val < 8192 := (i 0).isLt
  have hi1 : (i 1).val < 14336 := (i 1).isLt
  have hlt : (i 0).val / 1024 * 112 + (i 1).val / 128 < cfg0.N := by
    rw [show cfg0.N = 896 from N_0]; omega
  obtain ⟨t, ht⟩ : ∃ t : Fin cfg0.N, t.val = (i 0).val / 1024 * 112 + (i 1).val / 128 := ⟨⟨_, hlt⟩, rfl⟩
  obtain ⟨-, -, -, -, -, -, -, -, -, -, b0, b1⟩ := idx_facts t
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 128 ≤ (i 1).val ∧ (i 1).val < win0_5.index t (1 : Fin 2) * 128 + 128; omega

/-- The hidden array after the region: `upArr` of the arrays the region finds. -/
theorem up_final (c : Dev nD) :
    (dat0 (F := Ideal) V c).arrAt 5 cfg0.N
      = upArr (V c main_v1) (V c main_arg1) (V c main_arg2) (V c main_arg3) (V c main_arg4) :=
  (dat0 (F := Ideal) V c).arrAt_eq_of_cover 5
    (upArr (V c main_v1) (V c main_arg1) (V c main_arg2) (V c main_arg3) (V c main_arg4))
    (fun t _ => flushed_eq V c t) cover

end

end Cert.KernelIdeal.UpValue

end
-- ==== Proof.DownPieces.lean ====
/-
  The down projection's kernel body, as values.

  At the first point of a run along the reduction axis the body stores the zero block, reads it back, and leaves
  the zero block plus this point's block product; at every later point it leaves what the point before left plus
  this point's block product.  Both are the body's one arithmetic term (`k1_pay2`) of the three input blocks and
  of the block the output buffer held: the zero block at a first point, the carried block otherwise.
-/
import proofs.«127540_j71700184040135_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.DownValue

open Cert.KernelIdeal Cert.KernelIdeal.Gen

variable {F : FTy → Type} [FloatOps F]

theorem hz : (![0, 0] : Fin 2 → Nat) = fun _ => 0 := funext fun a => by fin_cases a <;> rfl

/-- A later point of a run: the carried block `xo` plus the block product. -/
theorem out_B (c : Dev nD) (i : grid1.Coords) (a3 : Memref sig .tc .vmem S2048x1024 .bf16) (h3 : a3.IsWhole)
    (a4 : Memref sig .tc .vmem S512x1024 .i32) (h4 : a4.IsWhole) (a5 : Memref sig .tc .vmem S8x512 .f32) (h5 : a5.IsWhole)
    (a6 : Memref sig .tc .vmem S2048x512 .f32) (h6 : a6.IsWhole) (hc : ¬cond1_0 i)
    (x0 : Vec F S2048x1024 .bf16) (x1 : Vec F S512x1024 .i32) (x2 : Vec F S8x512 .f32) (xo : Vec F S2048x512 .f32) :
    out1_B_3 c i a3 h3 a4 h4 a5 h5 a6 h6 hc x0 x1 x2 xo = k1_pay2 x0 x2 x1 xo := by
  unfold out1_B_3
  rw [View.read_writes_eq_canon _ _ _ (cover1_B_3 c i a3 h3 a4 h4 a5 h5 a6 h6 hc x0 x1 x2 xo)]
  unfold kernelRun1_B
  dsimp only
  rw [View.canon_unit_zero hz]
  simp only [View.readAt_eq_ld, h3.read_unread, h4.read_unread, h5.read_unread, h6.read_unread,
    View.ld_unit_zero (S := S2048x1024) hz, View.ld_unit_zero (S := S512x1024) hz, View.ld_unit_zero (S := S8x512) hz,
    View.ld_unit_zero (S := S2048x512) hz]

/-- The first point of a run: the zero block, stored and read back, plus the block product. -/
theorem out_A (c : Dev nD) (i : grid1.Coords) (a3 : Memref sig .tc .vmem S2048x1024 .bf16) (h3 : a3.IsWhole)
    (a4 : Memref sig .tc .vmem S512x1024 .i32) (h4 : a4.IsWhole) (a5 : Memref sig .tc .vmem S8x512 .f32) (h5 : a5.IsWhole)
    (a6 : Memref sig .tc .vmem S2048x512 .f32) (h6 : a6.IsWhole) (hc : cond1_0 i)
    (x0 : Vec F S2048x1024 .bf16) (x1 : Vec F S512x1024 .i32) (x2 : Vec F S8x512 .f32) :
    out1_A_3 c i a3 h3 a4 h4 a5 h5 a6 h6 hc x0 x1 x2 = k1_pay2 x0 x2 x1 (k1_pay1 (F := F)) := by
  unfold out1_A_3
  rw [View.read_writes_eq_canon _ _ _ (cover1_A_3 c i a3 h3 a4 h4 a5 h5 a6 h6 hc x0 x1 x2)]
  unfold kernelRun1_A
  dsimp only
  sl_unfold_words
  rw [View.canon_cons_unit_zero (S := S2048x512) hz, View.readCov_unit_zero (S := S2048x512) _ hz]
  simp only [View.readAt_eq_ld, h3.read_unread, h4.read_unread, h5.read_unread,
    View.ld_unit_zero (S := S2048x1024) hz, View.ld_unit_zero (S := S512x1024) hz, View.ld_unit_zero (S := S8x512) hz,
    View.ld_unit_zero (S := S2048x512) hz]

end Cert.KernelIdeal.DownValue

end
-- ==== Proof.DownBlock.lean ====
/-
  The down projection's body, read at an index on the extended reals.

  With `hb` the `[2048, 1024]` block of hidden activations, a quantised `[512, 1024]` weight block (8 groups of
  128 columns) whose scales arrive transposed as `[8, 512]`, and `acc` the block the output buffer held, entry
  `(r, o)` of the stored block is `acc (r, o) + ∑ k, hb (r, k) · wd (o, k)`, where `wd (o, k)` is the integer at
  `(o, k)` read signed times the scale at `(k / 128, o)`.  The change of float format is the identity here.
-/
import proofs.«127540_j71700184040135_1_alg».proof.Proof.Gen.KernelIdeal.Skeleton
import proofs.«127540_j71700184040135_1_alg».proof.Proof.LibQuantBlock

noncomputable section

open scoped BigOperators

namespace Cert.KernelIdeal.DownValue

open Cert.KernelIdeal Cert.KernelIdeal.Gen
open Idealize.ShloMosaic Idealize.ShloMosaic.ValueIdx
open Cert.QuantBlock (grp)

/-- The stored block at `(r, o)`: what the buffer held plus the block product. -/
theorem pay2_apply (v3 : Vec Ideal S2048x1024 .bf16) (v5 : Vec Ideal S8x512 .f32) (v8 : Vec Ideal S512x1024 .i32)
    (v17 : Vec Ideal S2048x512 .f32) (r : Fin 2048) (o : Fin 512) :
    k1_pay2 (F := Ideal) v3 v5 v8 v17 (ix2 r o)
      = v17 (ix2 r o) + ∑ k : Fin 1024, v3 (ix2 r k)
          * ((((v8 (ix2 o k)).toInt : ℝ) : EReal) * v5 (ix2 (grp (g := 8) (c := 128) k) o)) := by
  unfold k1_pay2
  simp only [shapeCast_self]
  show v17 (ix2 r o) + matmul (F := Ideal) dot_S2048x1024_S512x1024_S2048x512_1_1_0_0_n_n none v3 _ (constant S2048x512 .f32 0x00000000#32) (ix2 r o) = _
  rw [Cert.QuantBlock.matmul_abT_apply _ rfl rfl rfl rfl rfl rfl]
  refine congrArg (v17 (ix2 r o) + ·) (Finset.sum_congr rfl fun k _ => congrArg (v3 (ix2 r k) * ·) ?_)
  exact Cert.QuantBlock.dequantT_apply (r := 512) (g := 8) (c := 128) (by decide) v8 v5 _ _ _ _ _ o k

/-- The zero block the first point of a run stores. -/
theorem pay1_apply (y : S2048x512.Idx) : k1_pay1 (F := Ideal) y = 0 := by
  show Ideal.ofBits .f32 0x00000000#32 = 0
  exact Ideal.ofBits_zero_f32

end Cert.KernelIdeal.DownValue

end
-- ==== Proof.DownArray.lean ====
/-
  The down projection's region: its output array as one function of the arrays it finds.

  The grid is `4 × 7 × 14` points `(bi, hi, ii)`, the last axis innermost: point `n` has `ii = n % 14`,
  `hi = (n / 14) % 7`, `bi = n / 98`.  The output block `(bi, hi)`, `[2048, 512]`, stays in its buffer over the run
  of 14 points that share `(bi, hi)`: the first point stores zero plus its block product, each later point adds its
  own, and the block is written back after the last.  So what is written back at `(r, o)` is zero plus the sum over
  the 14 points of `∑ k, hb (r, k) · wd (o, k)` over each point's 1024 hidden units: the sum over all
  `14 · 1024 = 14336` hidden units, in blocks.  The written blocks tile the `[8192, 3584]` array.
-/
import proofs.«127540_j71700184040135_1_alg».proof.Proof.Gen.KernelIdeal.Frame
import proofs.«127540_j71700184040135_1_alg».proof.Proof.DownPieces
import proofs.«127540_j71700184040135_1_alg».proof.Proof.DownBlock
import proofs.«127540_j71700184040135_1_alg».proof.Proof.Spec
import Idealize.ShloMosaic.Lib.Pipeline.Value

set_option maxRecDepth 16384

noncomputable section

open scoped BigOperators

namespace Cert.KernelIdeal.DownValue

open Cert.KernelIdeal Cert.KernelIdeal.Gen
open Idealize.ShloMosaic Idealize.ShloMosaic.TcCoe Idealize.SL.Sem Idealize.ShloMosaic.ValueIdx
open Idealize.ShloMosaic.Pipeline (Dat)
open Cert.QuantBlock (grp)

variable (V : (c : Dev nD) → (b : Ref sig .tc) → Buf (Elt Ideal) ((c : Thread nD τ).loc b))

/-- The three input blocks at point `n`. -/
abbrev hb (c : Dev nD) (n : ℕ) (h : n < cfg1.N) : Vec Ideal S2048x1024 .bf16 := iblk1 V c 0 ⟨n, h⟩
abbrev qb (c : Dev nD) (n : ℕ) (h : n < cfg1.N) : Vec Ideal S512x1024 .i32 := iblk1 V c 1 ⟨n, h⟩
abbrev sb (c : Dev nD) (n : ℕ) (h : n < cfg1.N) : Vec Ideal S8x512 .f32 := iblk1 V c 2 ⟨n, h⟩

/-- Point `n`'s block product at `(r, o)` (zero past the grid, where it is never used). -/
def addend (c : Dev nD) (n : ℕ) : S2048x512.Idx → EReal := fun y =>
  if h : n < cfg1.N then
    ∑ k : Fin 1024, hb V c n h (ix2 (y 0) k)
      * ((((qb V c n h (ix2 (y 1) k)).toInt : ℝ) : EReal) * sb V c n h (ix2 (grp (g := 8) (c := 128) k) (y 1)))
  else 0

/-- What a first point of a run leaves, and what a later point makes of the carried block. -/
def resetAt (c : Dev nD) (n : ℕ) (h : n < cfg1.N) : S2048x512.Idx → EReal :=
  k1_pay2 (F := Ideal) (hb V c n h) (sb V c n h) (qb V c n h) (k1_pay1 (F := Ideal))
def stepAt (c : Dev nD) (n : ℕ) (h : n < cfg1.N) (acc : S2048x512.Idx → EReal) : S2048x512.Idx → EReal :=
  k1_pay2 (F := Ideal) (hb V c n h) (sb V c n h) (qb V c n h) acc

theorem reset_apply (c : Dev nD) (n : ℕ) (h : n < cfg1.N) (y : S2048x512.Idx) :
    resetAt V c n h y = 0 + addend V c n y := by
  obtain ⟨r, o, rfl⟩ : ∃ (r : Fin 2048) (o : Fin 512), y = ix2 r o := ⟨y 0, y 1, eq_ix2 y⟩
  unfold resetAt addend
  rw [dif_pos h, pay2_apply, pay1_apply]

theorem step_apply (c : Dev nD) (n : ℕ) (h : n < cfg1.N) (acc : S2048x512.Idx → EReal) (y : S2048x512.Idx) :
    stepAt V c n h acc y = acc y + addend V c n y := by
  obtain ⟨r, o, rfl⟩ : ∃ (r : Fin 2048) (o : Fin 512), y = ix2 r o := ⟨y 0, y 1, eq_ix2 y⟩
  unfold stepAt addend
  rw [dif_pos h, pay2_apply]

/-- The buffer after a first point of a run. -/
theorem outsAt_reset (c : Dev nD) (n : ℕ) (h : n < cfg1.N) (h0 : n % 14 = 0) : outsAt1 V c n h = resetAt V c n h :=
  (outsAt1_A V c ⟨n, h⟩ h0).trans (out_A ..)

/-- The buffer after a later point: the step applied to what the point before left. -/
theorem outsAt_step (c : Dev nD) (n : ℕ) (h : n + 1 < cfg1.N) (h0 : ¬(n + 1) % 14 = 0) :
    outsAt1 V c (n + 1) h = stepAt V c (n + 1) h (outsAt1 V c n (Nat.lt_of_succ_lt h)) :=
  (outsAt1_B V c ⟨n + 1, h⟩ h0).trans (out_B ..)

/-- THE RUNNING TOTAL: after point `t` the buffer holds zero plus the block products of the points of `t`'s run up to `t`. -/
theorem outsAt_run (c : Dev nD) (t : ℕ) (ht : t < cfg1.N) (h' : 14 * (t / 14) + t % 14 < cfg1.N) (y : S2048x512.Idx) :
    outsAt1 V c t ht y = 0 + ∑ s ∈ Finset.range (t % 14 + 1), addend V c (14 * (t / 14) + s) y := by
  rw [Pipeline.eq_accAt_of_mod (outsAt1 V c) 14 (resetAt V c) (stepAt V c) (outsAt_reset V c) (outsAt_step V c)
    (by decide) t ht h']
  exact Pipeline.accAt_add_apply (resetAt V c) (stepAt V c) (fun _ => 0) (addend V c) (14 * (t / 14)) 13
    (fun h i => reset_apply V c _ h i) (fun n h acc i _ _ => step_apply V c n h acc i) (t % 14) (by omega) h' y

/-! ## From the written blocks to the array -/

/-- The printed index maps, decided over the grid: the block indices of the four windows at point `t`. -/
theorem idx_facts : ∀ t : Fin cfg1.N,
    win1_0.index t (0 : Fin 2) = t.val / 98 ∧ win1_0.index t (1 : Fin 2) = t.val % 14
    ∧ win1_1.index t (0 : Fin 2) = (t.val / 14) % 7 ∧ win1_1.index t (1 : Fin 2) = t.val % 14
    ∧ win1_2.index t (0 : Fin 2) = t.val % 14 ∧ win1_2.index t (1 : Fin 2) = (t.val / 14) % 7
    ∧ win1_3.index t (0 : Fin 2) = t.val / 98 ∧ win1_3.index t (1 : Fin 2) = (t.val / 14) % 7 :=
  (by decide +kernel : ∀ t : Fin grid1.N, _)

/-- Entry `(r, o)` of the output array: the down projection of hidden row `r` onto output feature `o`, the scale of
    weight `(o, i)` at `(i / 128, o)` of the transposed scale table. -/
def downAt (Hd : S8192x14336.Idx → EReal) (dq : S3584x14336.Idx → BitVec 32) (dst : S112x3584.Idx → EReal)
    (r : Fin 8192) (o : Fin 3584) : EReal :=
  ∑ i : Fin 14336, Hd (ix2 r i) * ((((dq (ix2 o i)).toInt : ℝ) : EReal) * dst (ix2 (grp (g := 112) (c := 128) i) o))

def downArr (Hd : S8192x14336.Idx → EReal) (dq : S3584x14336.Idx → BitVec 32) (dst : S112x3584.Idx → EReal) :
    S8192x3584.Idx → EReal := fun j => downAt Hd dq dst (j 0) (j 1)

theorem downArr_apply (Hd : S8192x14336.Idx → EReal) (dq : S3584x14336.Idx → BitVec 32) (dst : S112x3584.Idx → EReal)
    (r : Fin 8192) (o : Fin 3584) : downArr Hd dq dst (ix2 r o) = downAt Hd dq dst r o := rfl

/-- The three arrays the region finds: the hidden activations, the integer weights, the transposed scale table. -/
abbrev hidArr (c : Dev nD) : S8192x14336.Idx → EReal := V c main_v3
abbrev dqArr (c : Dev nD) : S3584x14336.Idx → BitVec 32 := V c main_arg5
abbrev dstArr (c : Dev nD) : S112x3584.Idx → EReal := V c main_v2

/-- An entry of the hidden block at point `n`, in the hidden array. -/
theorem hb_at (c : Dev nD) (n : ℕ) (h : n < cfg1.N) (r : Fin 2048) (k : Fin 1024) (R : Fin 8192) (I : Fin 14336)
    (hR : R.val = win1_0.index ⟨n, h⟩ (0 : Fin 2) * 2048 + r.val) (hI : I.val = win1_0.index ⟨n, h⟩ (1 : Fin 2) * 1024 + k.val) :
    hb V c n h (ix2 r k) = hidArr V c (ix2 R I) := by
  show iblk1 V c 0 ⟨n, h⟩ (ix2 r k) = _
  unfold iblk1
  rw [View.read_apply]
  show V c main_v3 _ = V c main_v3 _
  congr 1
  funext a
  apply Fin.ext
  match a with
  | ⟨0, _⟩ => show win1_0.index ⟨n, h⟩ (0 : Fin 2) * 2048 + 1 * r.val = R.val; omega
  | ⟨1, _⟩ => show win1_0.index ⟨n, h⟩ (1 : Fin 2) * 1024 + 1 * k.val = I.val; omega

/-- An entry of the integer weight block at point `n`, in the weight array. -/
theorem qb_at (c : Dev nD) (n : ℕ) (h : n < cfg1.N) (o : Fin 512) (k : Fin 1024) (O : Fin 3584) (I : Fin 14336)
    (hO : O.val = win1_1.index ⟨n, h⟩ (0 : Fin 2) * 512 + o.val) (hI : I.val = win1_1.index ⟨n, h⟩ (1 : Fin 2) * 1024 + k.val) :
    qb V c n h (ix2 o k) = dqArr V c (ix2 O I) := by
  show iblk1 V c 1 ⟨n, h⟩ (ix2 o k) = _
  unfold iblk1
  rw [View.read_apply]
  show V c main_arg5 _ = V c main_arg5 _
  congr 1
  funext a
  apply Fin.ext
  match a with
  | ⟨0, _⟩ => show win1_1.index ⟨n, h⟩ (0 : Fin 2) * 512 + 1 * o.val = O.val; omega
  | ⟨1, _⟩ => show win1_1.index ⟨n, h⟩ (1 : Fin 2) * 1024 + 1 * k.val = I.val; omega

/-- An entry of the transposed scale block at point `n`, in the transposed scale table. -/
theorem sb_at (c : Dev nD) (n : ℕ) (h : n < cfg1.N) (a : Fin 8) (o : Fin 512) (A : Fin 112) (O : Fin 3584)
    (hA : A.val = win1_2.index ⟨n, h⟩ (0 : Fin 2) * 8 + a.val) (hO : O.val = win1_2.index ⟨n, h⟩ (1 : Fin 2) * 512 + o.val) :
    sb V c n h (ix2 a o) = dstArr V c (ix2 A O) := by
  show iblk1 V c 2 ⟨n, h⟩ (ix2 a o) = _
  unfold iblk1
  rw [View.read_apply]
  show V c main_v2 _ = V c main_v2 _
  congr 1
  funext b
  apply Fin.ext
  match b with
  | ⟨0, _⟩ => show win1_2.index ⟨n, h⟩ (0 : Fin 2) * 8 + 1 * a.val = A.val; omega
  | ⟨1, _⟩ => show win1_2.index ⟨n, h⟩ (1 : Fin 2) * 512 + 1 * o.val = O.val; omega

/-- WHAT A FLUSHING POINT WRITES BACK is its block of the down projection. -/
theorem flushed_eq (c : Dev nD) (t : Fin cfg1.N) (hf : (cfg1.win 3).flush t = true) :
    (dat1 V c).flushed 3 t = ((cfg1.win 3).blk t).view.read (Elt Ideal) (downArr (hidArr V c) (dqArr V c) (dstArr V c)) := by
  have hN : cfg1.N = 392 := N_1
  have htN : t.val < 392 := lt_of_lt_of_eq t.isLt hN
  have hm : t.val % 14 = 13 := (flush1_3 t).mp hf
  have h' : 14 * (t.val / 14) + t.val % 14 < cfg1.N := by rw [Nat.div_add_mod]; exact t.isLt
  obtain ⟨f0, f1, f2, f3, f4, f5, f6, f7⟩ := idx_facts t
  show (cfg1.win 3).cut (grid1.coords t) ((dat1 V c).after 3 t) = _
  rw [after1_3]
  funext y
  rw [View.read_apply]
  have hy0 : (y 0).val < 2048 := (y 0).isLt
  have hy1 : (y 1).val < 512 := (y 1).isLt
  have hemb : ((cfg1.win 3).blk t).view.emb y
      = ix2 (⟨win1_3.index t (0 : Fin 2) * 2048 + (y 0).val, by omega⟩ : Fin 8192) (⟨win1_3.index t (1 : Fin 2) * 512 + (y 1).val, by omega⟩ : Fin 3584) :=
    funext fun a => Fin.ext (by
      match a with
      | ⟨0, _⟩ => show win1_3.index t (0 : Fin 2) * 2048 + 1 * (y 0).val = _; show _ = win1_3.index t (0 : Fin 2) * 2048 + (y 0).val; omega
      | ⟨1, _⟩ => show win1_3.index t (1 : Fin 2) * 512 + 1 * (y 1).val = _; show _ = win1_3.index t (1 : Fin 2) * 512 + (y 1).val; omega)
  rw [hemb, downArr_apply]
  show outsAt1 V c t.val t.isLt y = _
  rw [outsAt_run V c t.val t.isLt h' y, hm, zero_add, Finset.sum_range]
  unfold downAt
  refine Eq.trans ?_ (Cert.GatedMlp.sum_blocks 14 1024 (fun i : Fin (14 * 1024) =>
    hidArr V c (ix2 (⟨win1_3.index t (0 : Fin 2) * 2048 + (y 0).val, by omega⟩ : Fin 8192) i)
      * ((((dqArr V c (ix2 (⟨win1_3.index t (1 : Fin 2) * 512 + (y 1).val, by omega⟩ : Fin 3584) i)).toInt : ℝ) : EReal)
        * dstArr V c (ix2 (grp (g := 112) (c := 128) i) (⟨win1_3.index t (1 : Fin 2) * 512 + (y 1).val, by omega⟩ : Fin 3584))))).symm
  refine Finset.sum_congr rfl fun s _ => ?_
  have hs : s.val < 14 := s.isLt
  have hn : 14 * (t.val / 14) + s.val < cfg1.N := lt_of_lt_of_eq (by omega : 14 * (t.val / 14) + s.val < 392) hN.symm
  obtain ⟨e0, e1, e2, e3, e4, e5, e6, e7⟩ := idx_facts ⟨14 * (t.val / 14) + s.val, hn⟩
  dsimp only at e0 e1 e2 e3 e4 e5 e6 e7
  unfold addend
  rw [dif_pos hn]
  refine Finset.sum_congr rfl fun k _ => ?_
  have hk : k.val < 1024 := k.isLt
  rw [hb_at V c _ hn (y 0) k ⟨win1_3.index t (0 : Fin 2) * 2048 + (y 0).val, by omega⟩ ⟨s.val * 1024 + k.val, by omega⟩ (by dsimp only; omega) (by dsimp only; omega),
    qb_at V c _ hn (y 1) k ⟨win1_3.index t (1 : Fin 2) * 512 + (y 1).val, by omega⟩ ⟨s.val * 1024 + k.val, by omega⟩ (by dsimp only; omega) (by dsimp only; omega),
    sb_at V c _ hn (grp (g := 8) (c := 128) k) (y 1) (grp (g := 112) (c := 128) ⟨s.val * 1024 + k.val, by omega⟩) ⟨win1_3.index t (1 : Fin 2) * 512 + (y 1).val, by omega⟩ (by show (s.val * 1024 + k.val) / 128 = _ * 8 + k.val / 128; omega) (by dsimp only; omega)]

/-- An index of the array is in point `t`'s block iff each coordinate is in the block's range on its axis. -/
theorem mem_blk (t : Fin cfg1.N) (i : S8192x3584.Idx) :
    i ∈ ((cfg1.win 3).blk t).view.set ↔ ∀ a : Fin 2, win1_3.index t a * S2048x512.size a ≤ (i a).val ∧ (i a).val < win1_3.index t a * S2048x512.size a + S2048x512.size a := by
  show i ∈ ((View.whole main_v4).slice (win1_3.rect t)).set ↔ _
  rw [View.set_slice_whole, Rect.mem_set_unit]
  exact Iff.rfl

/-- Every index of the array is in the block of the last point of some run. -/
theorem cover (i : S8192x3584.Idx) : ∃ t : Fin cfg1.N, (cfg1.win 3).flush t = true ∧ i ∈ ((cfg1.win 3).blk t).view.set := by
  have hN : cfg1.N = 392 := N_1
  have hi0 : (i 0).val < 8192 := (i 0).isLt
  have hi1 : (i 1).val < 3584 := (i 1).isLt
  have ht : ((i 0).val / 2048) * 98 + ((i 1).val / 512) * 14 + 13 < cfg1.N := lt_of_lt_of_eq (by omega : ((i 0).val / 2048) * 98 + ((i 1).val / 512) * 14 + 13 < 392) hN.symm
  refine ⟨⟨((i 0).val / 2048) * 98 + ((i 1).val / 512) * 14 + 13, ht⟩, (flush1_3 _).mpr (by show (((i 0).val / 2048) * 98 + ((i 1).val / 512) * 14 + 13) % 14 = 13; omega), ?_⟩
  obtain ⟨f0, f1, f2, f3, f4, f5, f6, f7⟩ := idx_facts ⟨((i 0).val / 2048) * 98 + ((i 1).val / 512) * 14 + 13, ht⟩
  dsimp only at f6 f7
  rw [mem_blk]
  intro a
  match a with
  | ⟨0, _⟩ => show win1_3.index _ (0 : Fin 2) * 2048 ≤ (i 0).val ∧ (i 0).val < win1_3.index _ (0 : Fin 2) * 2048 + 2048; rw [f6]; omega
  | ⟨1, _⟩ => show win1_3.index _ (1 : Fin 2) * 512 ≤ (i 1).val ∧ (i 1).val < win1_3.index _ (1 : Fin 2) * 512 + 512; rw [f7]; omega

/-- THE OUTPUT ARRAY after the region: the down projection of the hidden array it found. -/
theorem down_final (c : Dev nD) :
    (dat1 V c).arrAt 3 cfg1.N = downArr (hidArr V c) (dqArr V c) (dstArr V c) :=
  (dat1 V c).arrAt_eq_of_cover 3 (downArr (hidArr V c) (dqArr V c) (dstArr V c)) (fun t hf => flushed_eq V c t hf) cover

end Cert.KernelIdeal.DownValue

end
-- ==== Proof.KValue.lean ====
/-
  The kernel program's result as one function of its arguments.

  Reading the program's segment boundaries backwards from the result buffer: the closing reshape views the down
  region's `[8192, 3584]` array as `[4, 2048, 3584]`, so entry `(b, s, o)` is row `b · 2048 + s`; that array is the
  down projection of the hidden array the gate/up region left, through the integer weights and the TRANSPOSED scale
  table a host line made of the scales (entry `(a, o)` of the table is scale `(o, a)`); the hidden array is the
  activation of the gate and up projections of the rows array, which a host line made of the input: the input
  viewed `[8192, 3584]` (the change of float format is the identity here), row `b · 2048 + s` being token
  `(b, s)`.  Every other array a region reads is an argument, untouched.  Put together, entry `(b, s, o)` of the
  result is the specification `G` of the arguments.
-/
import proofs.«127540_j71700184040135_1_alg».proof.Proof.Gen.KernelIdeal.Frame
import proofs.«127540_j71700184040135_1_alg».proof.Proof.UpArray
import proofs.«127540_j71700184040135_1_alg».proof.Proof.Spec
import proofs.«127540_j71700184040135_1_alg».proof.Proof.DownArray
import Idealize.ShloMosaic.Lib.StableHlo.Run
import Idealize.ShloMosaic.Lib.ValueLayout

set_option maxRecDepth 16384

noncomputable section
open scoped BigOperators
namespace Cert.KernelIdeal.KValue
open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The host lines and the region boundaries, read back

`V1` is what the gate/up region finds, `V2` what the down region finds, `W3` what it leaves, `W4` the last boundary. -/

theorem V1_v1 (c : Dev nD) : V1 m ρ c main_v1
    = truncf (F := Ideal) .bf16 (shapeCast S8192x3584 (m ((c : Thread nD τ).loc main_arg0)) shapeCasts_S4x2048x3584_S8192x3584) bitsLt_bf16_f32 := by
  show StableHlo.after hostOps0 (W0 m ρ c) (Proc.devRef .tc main_v1) = _
  after_results
  rfl

theorem V1_arg1 (c : Dev nD) : V1 m ρ c main_arg1 = m ((c : Thread nD τ).loc main_arg1) := by
  show StableHlo.after hostOps0 (W0 m ρ c) (Proc.devRef .tc main_arg1) = _
  after_results

theorem V1_arg2 (c : Dev nD) : V1 m ρ c main_arg2 = m ((c : Thread nD τ).loc main_arg2) := by
  show StableHlo.after hostOps0 (W0 m ρ c) (Proc.devRef .tc main_arg2) = _
  after_results

theorem V1_arg3 (c : Dev nD) : V1 m ρ c main_arg3 = m ((c : Thread nD τ).loc main_arg3) := by
  show StableHlo.after hostOps0 (W0 m ρ c) (Proc.devRef .tc main_arg3) = _
  after_results

theorem V1_arg4 (c : Dev nD) : V1 m ρ c main_arg4 = m ((c : Thread nD τ).loc main_arg4) := by
  show StableHlo.after hostOps0 (W0 m ρ c) (Proc.devRef .tc main_arg4) = _
  after_results

theorem V2_v2 (c : Dev nD) : V2 m ρ c main_v2
    = transpose S112x3584 [1, 0] (m ((c : Thread nD τ).loc main_arg6)) transposes_S3584x112_S112x3584_1_0 := by
  refine (W2_of_ne m ρ c main_v2 (by decide)).trans ?_
  show StableHlo.after hostOps0 (W0 m ρ c) (Proc.devRef .tc main_v2) = _
  after_results

theorem V2_arg5 (c : Dev nD) : V2 m ρ c main_arg5 = m ((c : Thread nD τ).loc main_arg5) := by
  refine (W2_of_ne m ρ c main_arg5 (by decide)).trans ?_
  show StableHlo.after hostOps0 (W0 m ρ c) (Proc.devRef .tc main_arg5) = _
  after_results

theorem V2_v3 (c : Dev nD) : V2 m ρ c main_v3 = (dat0 (V1 m ρ) c).arrAt 5 cfg0.N := W2_arr m ρ c 5

theorem W3_v4 (c : Dev nD) : W3 m ρ c (Proc.devRef .tc main_v4) = (dat1 (V2 m ρ) c).arrAt 3 cfg1.N := W3_arr m ρ c 3

theorem W4_v5 (c : Dev nD) : W4 m ρ c (Proc.devRef .tc main_v5)
    = shapeCast S4x2048x3584 (W3 m ρ c (Proc.devRef .tc main_v4)) shapeCasts_S8192x3584_S4x2048x3584 := by
  show StableHlo.after hostOps2 (W3 m ρ c) (Proc.devRef .tc main_v5) = _
  after_results
  rfl

/-- THE RESULT: the last boundary's contents of the result buffer are `G` of the launch contents of the arguments. -/
theorem kernel_value (c : Dev nD) :
    @Eq (S4x2048x3584.Idx → EReal) (W4 m ρ c (Proc.devRef .tc main_v5))
      (Cert.GatedMlp.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))) := by
  funext j
  obtain ⟨b, s, o, rfl⟩ : ∃ (b : Fin 4) (s : Fin 2048) (o : Fin 3584), j = ix3 b s o := ⟨j 0, j 1, j 2, eq_ix3 j⟩
  have hb := b.isLt
  have hs := s.isLt
  rw [W4_v5, Cert.GatedMlp.G_apply]
  rw [shapeCast_apply _ shapeCasts_S8192x3584_S4x2048x3584 (ix3 b s o) (ix2 (⟨b.val * 2048 + s.val, by omega⟩ : Fin 8192) o) (by
    rw [Shape.rowMajor_val_two, Shape.rowMajor_val_three]
    rfl)]
  rw [W3_v4, DownValue.down_final (V2 m ρ) c, DownValue.downArr_apply]
  show (DownValue.downAt _ _ _ _ o : EReal) = Cert.GatedMlp.outTok _ _ _ _ o
  unfold DownValue.downAt Cert.GatedMlp.outTok
  refine Finset.sum_congr rfl fun i _ => ?_
  congr 1
  · show V2 m ρ c main_v3 (ix2 _ i) = _
    rw [V2_v3 m ρ c, UpValue.up_final (V1 m ρ) c]
    show Cert.GatedMlp.hidTok (fun h : Fin 3584 => V1 m ρ c main_v1 (ix2 _ h))
      (Cert.GatedMlp.deq (R := 14336) (G := 28) (V1 m ρ c main_arg1) (V1 m ρ c main_arg2))
      (Cert.GatedMlp.deq (R := 14336) (G := 28) (V1 m ρ c main_arg3) (V1 m ρ c main_arg4)) i = _
    rw [V1_arg1 m ρ c, V1_arg2 m ρ c, V1_arg3 m ρ c, V1_arg4 m ρ c, V1_v1 m ρ c]
    refine congrArg (fun x => Cert.GatedMlp.hidTok x _ _ i) (funext fun h => ?_)
    show shapeCast S8192x3584 (m ((c : Thread nD τ).loc main_arg0)) shapeCasts_S4x2048x3584_S8192x3584
      (ix2 (⟨b.val * 2048 + s.val, by omega⟩ : Fin 8192) h) = _
    exact shapeCast_apply (s := S4x2048x3584) (t := S8192x3584) _ _ (ix2 (⟨b.val * 2048 + s.val, by omega⟩ : Fin 8192) h) (ix3 b s h)
      (by rw [Shape.rowMajor_val_two, Shape.rowMajor_val_three]; rfl)
  · show (((V2 m ρ c main_arg5 (ix2 o i)).toInt : ℝ) : EReal) * V2 m ρ c main_v2 (ix2 (Cert.QuantBlock.grp (g := 112) (c := 128) i) o) = _
    rw [V2_arg5 m ρ c, V2_v2 m ρ c, transpose_ix2_apply]
    rfl

end Cert.KernelIdeal.KValue

end
-- ==== Proof.RefRead.lean ====
/- The reference program's run and its operations read at an index: the two generated modules the reference side builds on. -/
import proofs.«127540_j71700184040135_1_alg».proof.Proof.Gen.ReferenceIdeal.Run
import proofs.«127540_j71700184040135_1_alg».proof.Proof.Gen.ReferenceIdeal.Read
-- ==== Proof.RefIsSpec.lean ====
/-
  The reference program's result, read index by index, is the specification function `G`.

  The reference dequantises each weight matrix by converting the integers to reals, splitting every row of
  `G · 128` columns into `G` groups of 128 lanes, multiplying group `g` of row `r` by the scale at `(r, g)`,
  and joining the groups again.  Read at row `r` and column `h`, column `h` falls in group `h / 128` at lane
  `h % 128`, and `(h / 128) · 128 + h % 128 = h`: the entry is the integer at `(r, h)`, read signed, times
  the scale at `(r, h / 128)`, which is `deq`.  The two first contractions are then the gate and the up
  projection of a token, the elementwise operations between them and the last contraction are the
  activation (the reference multiplies `(g · g) · g` where the specification has `g · (g · g)`;
  multiplication of extended reals is commutative), and the last contraction is the down projection.
  Nothing is asked of the entries: every step is a reindexing or the commutativity of a product.
-/
import proofs.«127540_j71700184040135_1_alg».proof.Proof.RefRead
import proofs.«127540_j71700184040135_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.GatedMlp
open Idealize.ShloMosaic Idealize.ShloMosaic.TcCoe Idealize.SL.Sem Idealize.ShloMosaic.StableHlo Idealize.ShloMosaic.ValueIdx

/-! ## The three dequantised weights -/

/-- Entry `(r, h)` of the dequantised gate weight. -/
theorem v5_deq (x1 : (⟨S14336x3584, .i32⟩ : BufTy).Contents (Elt Ideal)) (x2 : (⟨S14336x28, .f32⟩ : BufTy).Contents (Elt Ideal))
    (r : Fin 14336) (h : Fin 3584) :
    val_main_v5 (F := Ideal) x1 x2 (ix2 r h) = deq (R := 14336) (G := 28) x1 x2 r h := by
  have hr := r.isLt
  have hh := h.isLt
  -- splitting column h into group h / 128 and lane h % 128 and joining them again gives back (r, h)
  have e1 : idx_main_v1 (idx_main_v5 (ix2 r h)) = ix2 r h :=
    funext fun a => Fin.ext (by
      match a with
      | ⟨0, _⟩ => show ((((r.val * 3584 + h.val) / 3584) * 28 + (r.val * 3584 + h.val) / 128 % 28) * 128 + (r.val * 3584 + h.val) % 128) / 3584 = r.val; omega
      | ⟨1, _⟩ => show ((((r.val * 3584 + h.val) / 3584) * 28 + (r.val * 3584 + h.val) / 128 % 28) * 128 + (r.val * 3584 + h.val) % 128) % 3584 = h.val; omega)
  -- the scale read there is the one of row r and group h / 128
  have e2 : idx_main_v2 (idx_main_v3 (idx_main_v5 (ix2 r h)))
      = ix2 r (⟨h.val / 128, Nat.div_lt_of_lt_mul (by have := h.isLt; omega)⟩ : Fin 28) :=
    funext fun a => Fin.ext (by
      match a with
      | ⟨0, _⟩ => show (r.val * 3584 + h.val) / 3584 = r.val; omega
      | ⟨1, _⟩ => show (r.val * 3584 + h.val) / 128 % 28 = h.val / 128; omega)
  rw [val_main_v5_apply, val_main_v4_apply, val_main_v1_apply, val_main_v0_apply, val_main_v3_apply, val_main_v2_apply, e1, e2]
  rfl

/-- Entry `(r, h)` of the dequantised up weight. -/
theorem v11_deq (x3 : (⟨S14336x3584, .i32⟩ : BufTy).Contents (Elt Ideal)) (x4 : (⟨S14336x28, .f32⟩ : BufTy).Contents (Elt Ideal))
    (r : Fin 14336) (h : Fin 3584) :
    val_main_v11 (F := Ideal) x3 x4 (ix2 r h) = deq (R := 14336) (G := 28) x3 x4 r h := by
  have hr := r.isLt
  have hh := h.isLt
  -- splitting column h into group h / 128 and lane h % 128 and joining them again gives back (r, h)
  have e1 : idx_main_v7 (idx_main_v11 (ix2 r h)) = ix2 r h :=
    funext fun a => Fin.ext (by
      match a with
      | ⟨0, _⟩ => show ((((r.val * 3584 + h.val) / 3584) * 28 + (r.val * 3584 + h.val) / 128 % 28) * 128 + (r.val * 3584 + h.val) % 128) / 3584 = r.val; omega
      | ⟨1, _⟩ => show ((((r.val * 3584 + h.val) / 3584) * 28 + (r.val * 3584 + h.val) / 128 % 28) * 128 + (r.val * 3584 + h.val) % 128) % 3584 = h.val; omega)
  -- the scale read there is the one of row r and group h / 128
  have e2 : idx_main_v8 (idx_main_v9 (idx_main_v11 (ix2 r h)))
      = ix2 r (⟨h.val / 128, Nat.div_lt_of_lt_mul (by have := h.isLt; omega)⟩ : Fin 28) :=
    funext fun a => Fin.ext (by
      match a with
      | ⟨0, _⟩ => show (r.val * 3584 + h.val) / 3584 = r.val; omega
      | ⟨1, _⟩ => show (r.val * 3584 + h.val) / 128 % 28 = h.val / 128; omega)
  rw [val_main_v11_apply, val_main_v10_apply, val_main_v7_apply, val_main_v6_apply, val_main_v9_apply, val_main_v8_apply, e1, e2]
  rfl

/-- Entry `(r, h)` of the dequantised down weight. -/
theorem v17_deq (x5 : (⟨S3584x14336, .i32⟩ : BufTy).Contents (Elt Ideal)) (x6 : (⟨S3584x112, .f32⟩ : BufTy).Contents (Elt Ideal))
    (r : Fin 3584) (h : Fin 14336) :
    val_main_v17 (F := Ideal) x5 x6 (ix2 r h) = deq (R := 3584) (G := 112) x5 x6 r h := by
  have hr := r.isLt
  have hh := h.isLt
  -- splitting column h into group h / 128 and lane h % 128 and joining them again gives back (r, h)
  have e1 : idx_main_v13 (idx_main_v17 (ix2 r h)) = ix2 r h :=
    funext fun a => Fin.ext (by
      match a with
      | ⟨0, _⟩ => show ((((r.val * 14336 + h.val) / 14336) * 112 + (r.val * 14336 + h.val) / 128 % 112) * 128 + (r.val * 14336 + h.val) % 128) / 14336 = r.val; omega
      | ⟨1, _⟩ => show ((((r.val * 14336 + h.val) / 14336) * 112 + (r.val * 14336 + h.val) / 128 % 112) * 128 + (r.val * 14336 + h.val) % 128) % 14336 = h.val; omega)
  -- the scale read there is the one of row r and group h / 128
  have e2 : idx_main_v14 (idx_main_v15 (idx_main_v17 (ix2 r h)))
      = ix2 r (⟨h.val / 128, Nat.div_lt_of_lt_mul (by have := h.isLt; omega)⟩ : Fin 112) :=
    funext fun a => Fin.ext (by
      match a with
      | ⟨0, _⟩ => show (r.val * 14336 + h.val) / 14336 = r.val; omega
      | ⟨1, _⟩ => show (r.val * 14336 + h.val) / 128 % 112 = h.val / 128; omega)
  rw [val_main_v17_apply, val_main_v16_apply, val_main_v13_apply, val_main_v12_apply, val_main_v15_apply, val_main_v14_apply, e1, e2]
  rfl

/-! ## The gate and up projections -/

/-- The first contraction at token `(b, s)` and hidden feature `k` is the gate projection of the token. -/
theorem v18_proj (x0 : (⟨S4x2048x3584, .f32⟩ : BufTy).Contents (Elt Ideal)) (x1 : (⟨S14336x3584, .i32⟩ : BufTy).Contents (Elt Ideal)) (x2 : (⟨S14336x28, .f32⟩ : BufTy).Contents (Elt Ideal))
    (b : Fin 4) (s : Fin 2048) (k : Fin 14336) :
    val_main_v18 (F := Ideal) x0 x1 x2 (ix3 b s k)
      = proj (fun h : Fin 3584 => x0 (ix3 b s h)) (deq (R := 14336) (G := 28) x1 x2) k := by
  have el : ∀ h : Fin 3584, lidx_main_v18 (ix3 b s k) h = ix3 b s h := fun h =>
    funext fun a => by match a with | ⟨0, _⟩ => rfl | ⟨1, _⟩ => rfl | ⟨2, _⟩ => rfl
  have er : ∀ h : Fin 3584, ridx_main_v18 (ix3 b s k) h = ix2 k h := fun h =>
    funext fun a => by match a with | ⟨0, _⟩ => rfl | ⟨1, _⟩ => rfl
  rw [val_main_v18_apply]
  unfold proj
  refine Finset.sum_congr rfl fun h _ => ?_
  rw [el, er, v5_deq]

/-- The second contraction at token `(b, s)` and hidden feature `k` is the up projection of the token. -/
theorem v19_proj (x0 : (⟨S4x2048x3584, .f32⟩ : BufTy).Contents (Elt Ideal)) (x3 : (⟨S14336x3584, .i32⟩ : BufTy).Contents (Elt Ideal)) (x4 : (⟨S14336x28, .f32⟩ : BufTy).Contents (Elt Ideal))
    (b : Fin 4) (s : Fin 2048) (k : Fin 14336) :
    val_main_v19 (F := Ideal) x0 x3 x4 (ix3 b s k)
      = proj (fun h : Fin 3584 => x0 (ix3 b s h)) (deq (R := 14336) (G := 28) x3 x4) k := by
  have el : ∀ h : Fin 3584, lidx_main_v19 (ix3 b s k) h = ix3 b s h := fun h =>
    funext fun a => by match a with | ⟨0, _⟩ => rfl | ⟨1, _⟩ => rfl | ⟨2, _⟩ => rfl
  have er : ∀ h : Fin 3584, ridx_main_v19 (ix3 b s k) h = ix2 k h := fun h =>
    funext fun a => by match a with | ⟨0, _⟩ => rfl | ⟨1, _⟩ => rfl
  rw [val_main_v19_apply]
  unfold proj
  refine Finset.sum_congr rfl fun h _ => ?_
  rw [el, er, v11_deq]

/-! ## The activation -/

/-- The hidden activation at token `(b, s)` and hidden feature `k`: the activation of the gate and up
    projections read there.  The reference cubes the gate as `(g · g) · g`, the specification as `g · (g · g)`. -/
theorem v33_act (x0 : (⟨S4x2048x3584, .f32⟩ : BufTy).Contents (Elt Ideal)) (x1 : (⟨S14336x3584, .i32⟩ : BufTy).Contents (Elt Ideal)) (x2 : (⟨S14336x28, .f32⟩ : BufTy).Contents (Elt Ideal)) (x3 : (⟨S14336x3584, .i32⟩ : BufTy).Contents (Elt Ideal)) (x4 : (⟨S14336x28, .f32⟩ : BufTy).Contents (Elt Ideal))
    (i : S4x2048x14336.Idx) :
    val_main_v33 (F := Ideal) x0 x1 x2 x3 x4 i
      = act (val_main_v18 (F := Ideal) x0 x1 x2 i) (val_main_v19 (F := Ideal) x0 x3 x4 i) := by
  rw [val_main_v33_apply, val_main_v32_apply, val_main_v31_apply, val_main_v30_apply, val_main_cst_2_apply,
    val_main_v29_apply, val_main_v28_apply, val_main_cst_1_apply, val_main_v27_apply, val_main_v26_apply,
    val_main_v25_apply, val_main_cst_0_apply, val_main_v24_apply, val_main_v23_apply, val_main_v22_apply,
    val_main_cst_apply, val_main_v21_apply, val_main_v20_apply]
  simp only [Ideal.mulf_def, Ideal.addf_def, Ideal.hostUnary_tanh_def, Ideal.ofBits_def]
  unfold act
  generalize val_main_v18 (F := Ideal) x0 x1 x2 i = g
  rw [mul_comm (g * g) g]

/-! ## The whole result -/

theorem ref_is_spec (x0 : (⟨S4x2048x3584, .f32⟩ : BufTy).Contents (Elt Ideal)) (x1 : (⟨S14336x3584, .i32⟩ : BufTy).Contents (Elt Ideal)) (x2 : (⟨S14336x28, .f32⟩ : BufTy).Contents (Elt Ideal)) (x3 : (⟨S14336x3584, .i32⟩ : BufTy).Contents (Elt Ideal)) (x4 : (⟨S14336x28, .f32⟩ : BufTy).Contents (Elt Ideal)) (x5 : (⟨S3584x14336, .i32⟩ : BufTy).Contents (Elt Ideal)) (x6 : (⟨S3584x112, .f32⟩ : BufTy).Contents (Elt Ideal)) :
    Cert.ReferenceIdeal.Read.val_main_v34 (F := Ideal) x0 x1 x2 x3 x4 x5 x6 = Cert.GatedMlp.G x0 x1 x2 x3 x4 x5 x6 := by
  funext j
  obtain ⟨b, s, o, rfl⟩ : ∃ (b : Fin 4) (s : Fin 2048) (o : Fin 3584), j = ix3 b s o := ⟨j 0, j 1, j 2, eq_ix3 j⟩
  have el : ∀ k : Fin 14336, lidx_main_v34 (ix3 b s o) k = ix3 b s k := fun k =>
    funext fun a => by match a with | ⟨0, _⟩ => rfl | ⟨1, _⟩ => rfl | ⟨2, _⟩ => rfl
  have er : ∀ k : Fin 14336, ridx_main_v34 (ix3 b s o) k = ix2 o k := fun k =>
    funext fun a => by match a with | ⟨0, _⟩ => rfl | ⟨1, _⟩ => rfl
  rw [G_apply, val_main_v34_apply]
  unfold outTok hidTok
  refine Finset.sum_congr rfl fun k _ => ?_
  rw [el, er, v33_act, v18_proj, v19_proj, v17_deq]

end Cert.ReferenceIdeal.RefValue

end
-- ==== Proof.lean ====
/-
  The certificate of the quantised gated MLP: the kernel program (a gate/up region, a down-projection region,
  host reshapes around them) against the plain reference, on the extended reals.

  The three frames: the two kernel programs' are the generated frame certificates; the reference's is its generated
  run with the result dropped.  The idealization rewrote nothing, so `preserves` is trivial.  For `algebraic` both
  runs end at ONE function of the argument arrays, `Cert.GatedMlp.G`: per token, the activation of the gate and
  up projections through the dequantised weights, then the down projection.  The kernel computes the hidden
  activations block by block and the down projection as a running total over 14 blocks of 1024 hidden units;
  a sum over 14336 indices is the sum of its 14 blocks' sums, in any additive commutative monoid.  The reference
  multiplies `(g · g) · g` where the kernel has `g · (g · g)`: the product of extended reals is commutative.  No
  entry is asked to be finite.
-/
import proofs.«127540_j71700184040135_1_alg».proof.Defs
import proofs.«127540_j71700184040135_1_alg».proof.Proof.Gen.Kernel
import proofs.«127540_j71700184040135_1_alg».proof.Proof.Gen.Kernel.Frame
import proofs.«127540_j71700184040135_1_alg».proof.Proof.Gen.KernelIdeal
import proofs.«127540_j71700184040135_1_alg».proof.Proof.Gen.KernelIdeal.Frame
import proofs.«127540_j71700184040135_1_alg».proof.Proof.Gen.ReferenceIdeal
import proofs.«127540_j71700184040135_1_alg».proof.Proof.Gen.ReferenceIdeal.Run
import proofs.«127540_j71700184040135_1_alg».proof.Proof.Gen.Pre_finite_inputs
import proofs.«127540_j71700184040135_1_alg».proof.Proof.KRun
import proofs.«127540_j71700184040135_1_alg».proof.Proof.KValue
import proofs.«127540_j71700184040135_1_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `G` of arguments that agree. -/
theorem algebraic : Cert.algebraic_KernelIdeal_ReferenceIdeal := by
  intro m ρ m' ρ' _ hagree
  refine ⟨fun c => Cert.GatedMlp.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KValue.kernel_value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2]
    exact (Cert.ReferenceIdeal.Read.val_main_v34_eq _ _ _ _ _ _ _).trans (Cert.ReferenceIdeal.RefValue.ref_is_spec _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
